-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel

variable [Facts]

def fn {F : FTy → Type} [FloatOps F] (main_arg0 : FVec F S16x3x512x512 .f32) (main_arg1 : FVec F S16x3x512x512 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S16x3x512x512 .f32 := Host.absf main_arg1
  let main_cst_0 : FVec F S_ .f32 := constant S_ .f32 0x7F800000#32
  let main_v5 : FVec F S16x3x512x512 .f32 := broadcastInDim S16x3x512x512 ![] bcast_S_S16x3x512x512 main_cst_0
  let main_v6 : IVec S16x3x512x512 1 := cmpf .olt main_v4 main_v5
  let main_c_1 : IVec S_ 1 := constantI S_ 1 1#1
  let main_v7 : IVec S_ 1 := (fun x v => Host.reduce IntOp.andi x v reducesTo_S16x3x512x512_S_d0_1_2_3 h_S_) main_v6 main_c_1
  let main_v8 : IVec S_ 1 := andi main_v3 main_v7
  main_v8
-- ==== Kernel.lean ====
abbrev S16x3x512x512 : Shape := ⟨4, ![16, 3, 512, 512]⟩
abbrev S16x1x1 : Shape := ⟨3, ![16, 1, 1]⟩
abbrev S1x3x512x512 : Shape := ⟨4, ![1, 3, 512, 512]⟩
abbrev S1x1x1 : Shape := ⟨3, ![1, 1, 1]⟩
abbrev S3x512x512 : Shape := ⟨3, ![3, 512, 512]⟩
abbrev S1x512x512 : Shape := ⟨3, ![1, 512, 512]⟩
abbrev S512x512 : Shape := ⟨2, ![512, 512]⟩
abbrev S512x1 : Shape := ⟨2, ![512, 1]⟩
abbrev S512x526 : Shape := ⟨2, ![512, 526]⟩
abbrev S1x526 : Shape := ⟨2, ![1, 526]⟩
abbrev S526x526 : Shape := ⟨2, ![526, 526]⟩
abbrev S526x512 : Shape := ⟨2, ![526, 512]⟩
abbrev S512 : Shape := ⟨1, ![512]⟩
abbrev S1 : Shape := ⟨1, ![1]⟩
abbrev S1x1 : Shape := ⟨2, ![1, 1]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S16x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1x3x512x512, .f32⟩
  | .local _ .vmem, ⟨1, _⟩ => ⟨S1x3x512x512, .f32⟩
  | .local _ .vmem, ⟨2, _⟩ => ⟨S1x3x512x512, .f32⟩
  | .local _ .vmem, ⟨3, _⟩ => ⟨S1x3x512x512, .f32⟩
  | .local _ .vmem, ⟨4, _⟩ => ⟨S1x1x1, .f32⟩
  | .local _ .vmem, ⟨5, _⟩ => ⟨S1x1x1, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x3x512x512_S1x3x512x512_0_0_0_0 : ∀ a, (![0, 0, 0, 0] : Fin 4 → Nat) a + S1x3x512x512.size a ≤ S1x3x512x512.size a
  h_S1x3x512x512 : 0 < S1x3x512x512.numel
  shapeCasts_S1x3x512x512_S3x512x512 : S1x3x512x512.ShapeCasts S3x512x512
  slices_S3x512x512_o0_0_0_S1x512x512 : S3x512x512.Slices ![0, 0, 0] S1x512x512
  shapeCasts_S1x512x512_S512x512 : S1x512x512.ShapeCasts S512x512
  slices_S3x512x512_o1_0_0_S1x512x512 : S3x512x512.Slices ![1, 0, 0] S1x512x512
  slices_S3x512x512_o2_0_0_S1x512x512 : S3x512x512.Slices ![2, 0, 0] S1x512x512
  slices_S512x512_o0_7_S512x1 : S512x512.Slices ![0, 7] S512x1
  slices_S512x512_o0_6_S512x1 : S512x512.Slices ![0, 6] S512x1
  slices_S512x512_o0_5_S512x1 : S512x512.Slices ![0, 5] S512x1
  slices_S512x512_o0_4_S512x1 : S512x512.Slices ![0, 4] S512x1
  slices_S512x512_o0_3_S512x1 : S512x512.Slices ![0, 3] S512x1
  slices_S512x512_o0_2_S512x1 : S512x512.Slices ![0, 2] S512x1
  slices_S512x512_o0_1_S512x1 : S512x512.Slices ![0, 1] S512x1
  slices_S512x512_o0_510_S512x1 : S512x512.Slices ![0, 510] S512x1
  slices_S512x512_o0_509_S512x1 : S512x512.Slices ![0, 509] S512x1
  slices_S512x512_o0_508_S512x1 : S512x512.Slices ![0, 508] S512x1
  slices_S512x512_o0_507_S512x1 : S512x512.Slices ![0, 507] S512x1
  slices_S512x512_o0_506_S512x1 : S512x512.Slices ![0, 506] S512x1
  slices_S512x512_o0_505_S512x1 : S512x512.Slices ![0, 505] S512x1
  slices_S512x512_o0_504_S512x1 : S512x512.Slices ![0, 504] S512x1
  concatenates_S512x1_S512x1_S512x1_S512x1_S512x1_S512x1_S512x1_S512x512_S512x1_S512x1_S512x1_S512x1_S512x1_S512x1_S512x1_S512x526_d1 : Shape.Concatenates [S512x1, S512x1, S512x1, S512x1, S512x1, S512x1, S512x1, S512x512, S512x1, S512x1, S512x1, S512x1, S512x1, S512x1, S512x1] S512x526 1
  slices_S512x526_o7_0_S1x526 : S512x526.Slices ![7, 0] S1x526
  slices_S512x526_o6_0_S1x526 : S512x526.Slices ![6, 0] S1x526
  slices_S512x526_o5_0_S1x526 : S512x526.Slices ![5, 0] S1x526
  slices_S512x526_o4_0_S1x526 : S512x526.Slices ![4, 0] S1x526
  slices_S512x526_o3_0_S1x526 : S512x526.Slices ![3, 0] S1x526
  slices_S512x526_o2_0_S1x526 : S512x526.Slices ![2, 0] S1x526
  slices_S512x526_o1_0_S1x526 : S512x526.Slices ![1, 0] S1x526
  slices_S512x526_o510_0_S1x526 : S512x526.Slices ![510, 0] S1x526
  slices_S512x526_o509_0_S1x526 : S512x526.Slices ![509, 0] S1x526
  slices_S512x526_o508_0_S1x526 : S512x526.Slices ![508, 0] S1x526
  slices_S512x526_o507_0_S1x526 : S512x526.Slices ![507, 0] S1x526
  slices_S512x526_o506_0_S1x526 : S512x526.Slices ![506, 0] S1x526
  slices_S512x526_o505_0_S1x526 : S512x526.Slices ![505, 0] S1x526
  slices_S512x526_o504_0_S1x526 : S512x526.Slices ![504, 0] S1x526
  concatenates_S1x526_S1x526_S1x526_S1x526_S1x526_S1x526_S1x526_S512x526_S1x526_S1x526_S1x526_S1x526_S1x526_S1x526_S1x526_S526x526_d0 : Shape.Concatenates [S1x526, S1x526, S1x526, S1x526, S1x526, S1x526, S1x526, S512x526, S1x526, S1x526, S1x526, S1x526, S1x526, S1x526, S1x526] S526x526 0
  slices_S526x526_o0_0_S526x512 : S526x526.Slices ![0, 0] S526x512
  slices_S526x526_o0_1_S526x512 : S526x526.Slices ![0, 1] S526x512
  slices_S526x526_o0_2_S526x512 : S526x526.Slices ![0, 2] S526x512
  slices_S526x526_o0_3_S526x512 : S526x526.Slices ![0, 3] S526x512
  slices_S526x526_o0_4_S526x512 : S526x526.Slices ![0, 4] S526x512
  slices_S526x526_o0_5_S526x512 : S526x526.Slices ![0, 5] S526x512
  slices_S526x526_o0_6_S526x512 : S526x526.Slices ![0, 6] S526x512
  slices_S526x526_o0_7_S526x512 : S526x526.Slices ![0, 7] S526x512
  slices_S526x526_o0_8_S526x512 : S526x526.Slices ![0, 8] S526x512
  slices_S526x526_o0_9_S526x512 : S526x526.Slices ![0, 9] S526x512
  slices_S526x526_o0_10_S526x512 : S526x526.Slices ![0, 10] S526x512
  slices_S526x526_o0_11_S526x512 : S526x526.Slices ![0, 11] S526x512
  slices_S526x526_o0_12_S526x512 : S526x526.Slices ![0, 12] S526x512
  slices_S526x526_o0_13_S526x512 : S526x526.Slices ![0, 13] S526x512
  slices_S526x526_o0_14_S526x512 : S526x526.Slices ![0, 14] S526x512
  slices_S526x512_o0_0_S512x512 : S526x512.Slices ![0, 0] S512x512
  slices_S526x512_o1_0_S512x512 : S526x512.Slices ![1, 0] S512x512
  slices_S526x512_o2_0_S512x512 : S526x512.Slices ![2, 0] S512x512
  slices_S526x512_o3_0_S512x512 : S526x512.Slices ![3, 0] S512x512
  slices_S526x512_o4_0_S512x512 : S526x512.Slices ![4, 0] S512x512
  slices_S526x512_o5_0_S512x512 : S526x512.Slices ![5, 0] S512x512
  slices_S526x512_o6_0_S512x512 : S526x512.Slices ![6, 0] S512x512
  slices_S526x512_o7_0_S512x512 : S526x512.Slices ![7, 0] S512x512
  slices_S526x512_o8_0_S512x512 : S526x512.Slices ![8, 0] S512x512
  slices_S526x512_o9_0_S512x512 : S526x512.Slices ![9, 0] S512x512
  slices_S526x512_o10_0_S512x512 : S526x512.Slices ![10, 0] S512x512
  slices_S526x512_o11_0_S512x512 : S526x512.Slices ![11, 0] S512x512
  slices_S526x512_o12_0_S512x512 : S526x512.Slices ![12, 0] S512x512
  slices_S526x512_o13_0_S512x512 : S526x512.Slices ![13, 0] S512x512
  slices_S526x512_o14_0_S512x512 : S526x512.Slices ![14, 0] S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S16x1x1_S_d0_1_2 : S16x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S16x3x512x512.size a
  hwx0_0 : ∀ i : grid0.Coords, EltTy.bits .f32 = 32 ∨ (Rect.block (s := S16x3x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512x512.size a ≤ S16x3x512x512.size a
  hwx0_1 : ∀ i : grid0.Coords, EltTy.bits .f32 = 32 ∨ (Rect.block (s := S16x3x512x512) S1x3x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S16x1x1.size a
  hwx0_2 : ∀ i : grid0.Coords, EltTy.bits .f32 = 32 ∨ (Rect.block (s := S16x1x1) S1x1x1.size (cc0_transform_2 i) (hinb0_2 i)).WholeWords (EltTy.packing .f32)

variable [Facts₀]

abbrev win0_0 : Pipeline.Window sig grid0 :=
  Pipeline.Window.ofSpec (Memref.whole main_arg0) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x3x512x512 : Shape := ⟨4, ![16, 3, 512, 512]⟩
abbrev S_ : Shape := ⟨0, ![]⟩
abbrev S16x512x512 : Shape := ⟨3, ![16, 512, 512]⟩
abbrev S16x1x512x512 : Shape := ⟨4, ![16, 1, 512, 512]⟩
abbrev S16x1x1x512 : Shape := ⟨4, ![16, 1, 1, 512]⟩
abbrev S16x1x7x512 : Shape := ⟨4, ![16, 1, 7, 512]⟩
abbrev S16x1x519x512 : Shape := ⟨4, ![16, 1, 519, 512]⟩
abbrev S16x1x526x512 : Shape := ⟨4, ![16, 1, 526, 512]⟩
abbrev S16x1x526x1 : Shape := ⟨4, ![16, 1, 526, 1]⟩
abbrev S16x1x526x7 : Shape := ⟨4, ![16, 1, 526, 7]⟩
abbrev S16x1x526x519 : Shape := ⟨4, ![16, 1, 526, 519]⟩
abbrev S16x1x526x526 : Shape := ⟨4, ![16, 1, 526, 526]⟩

abbrev nBuf : Space → Nat
  | .hbm => 82
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S_, .f32⟩
  | .hbm, ⟨3, _⟩ => ⟨S16x3x512x512, .f32⟩
  | .hbm, ⟨4, _⟩ => ⟨S16x3x512x512, .f32⟩
  | .hbm, ⟨5, _⟩ => ⟨S_, .f32⟩
  | .hbm, ⟨6, _⟩ => ⟨S16x3x512x512, .f32⟩
  | .hbm, ⟨7, _⟩ => ⟨S16x3x512x512, .f32⟩
  | .hbm, ⟨8, _⟩ => ⟨S_, .f32⟩
  | .hbm, ⟨9, _⟩ => ⟨S16x512x512, .f32⟩
  | .hbm, ⟨10, _⟩ => ⟨S16x1x512x512, .f32⟩
  | .hbm, ⟨11, _⟩ => ⟨S_, .i32⟩
  | .hbm, ⟨12, _⟩ => ⟨S16x1x1x512, .f32⟩
  | .hbm, ⟨13, _⟩ => ⟨S16x1x7x512, .f32⟩
  | .hbm, ⟨14, _⟩ => ⟨S16x1x7x512, .f32⟩
  | .hbm, ⟨15, _⟩ => ⟨S16x1x519x512, .f32⟩
  | .hbm, ⟨16, _⟩ => ⟨S16x1x1x512, .f32⟩
  | .hbm, ⟨17, _⟩ => ⟨S16x1x7x512, .f32⟩
  | .hbm, ⟨18, _⟩ => ⟨S16x1x7x512, .f32⟩
  | .hbm, ⟨19, _⟩ => ⟨S16x1x526x512, .f32⟩
  | .hbm, ⟨20, _⟩ => ⟨S16x1x526x1, .f32⟩
  | .hbm, ⟨21, _⟩ => ⟨S16x1x526x7, .f32⟩
  | .hbm, ⟨22, _⟩ => ⟨S16x1x526x7, .f32⟩
  | .hbm, ⟨23, _⟩ => ⟨S16x1x526x519, .f32⟩
  | .hbm, ⟨24, _⟩ => ⟨S16x1x526x1, .f32⟩
  | .hbm, ⟨25, _⟩ => ⟨S16x1x526x7, .f32⟩
  | .hbm, ⟨26, _⟩ => ⟨S16x1x526x7, .f32⟩
  | .hbm, ⟨27, _⟩ => ⟨S16x1x526x526, .f32⟩
  | .hbm, ⟨28, _⟩ => ⟨S_, .f32⟩
  | .hbm, ⟨29, _⟩ => ⟨S_, .f32⟩
  | .hbm, ⟨30, _⟩ => ⟨S16x1x512x512, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S16x1x512x512, .f32⟩
  | .hbm, ⟨35, _⟩ => ⟨S16x1x512x512, .f32⟩
  | .hbm, ⟨36, _⟩ => ⟨S_, .f32⟩
  | .hbm, ⟨37, _⟩ => ⟨S16x1x512x512, .f32⟩
  | .hbm, ⟨38, _⟩ => ⟨S16x1x512x512, .f32⟩
  | .hbm, ⟨39, _⟩ => ⟨S_, .f32⟩
  | .hbm, ⟨40, _⟩ => ⟨S16x3x512x512, .f32⟩
  | .hbm, ⟨41, _⟩ => ⟨S16x3x512x512, .f32⟩
  | .hbm, ⟨42, _⟩ => ⟨S_, .f32⟩
  | .hbm, ⟨43, _⟩ => ⟨S16x3x512x512, .f32⟩
  | .hbm, ⟨44, _⟩ => ⟨S16x3x512x512, .f32⟩
  | .hbm, ⟨45, _⟩ => ⟨S_, .f32⟩
  | .hbm, ⟨46, _⟩ => ⟨S16x512x512, .f32⟩
  | .hbm, ⟨47, _⟩ => ⟨S16x1x512x512, .f32⟩
  | .hbm, ⟨48, _⟩ => ⟨S_, .i32⟩
  | .hbm, ⟨49, _⟩ => ⟨S16x1x1x512, .f32⟩
  | .hbm, ⟨50, _⟩ => ⟨S16x1x7x512, .f32⟩
  | .hbm, ⟨51, _⟩ => ⟨S16x1x7x512, .f32⟩
  | .hbm, ⟨52, _⟩ => ⟨S16x1x519x512, .f32⟩
  | .hbm, ⟨53, _⟩ => ⟨S16x1x1x512, .f32⟩
  | .hbm, ⟨54, _⟩ => ⟨S16x1x7x512, .f32⟩
  | .hbm, ⟨55, _⟩ => ⟨S16x1x7x512, .f32⟩
  | .hbm, ⟨56, _⟩ => ⟨S16x1x526x512, .f32⟩
  | .hbm, ⟨57, _⟩ => ⟨S16x1x526x1, .f32⟩
  | .hbm, ⟨58, _⟩ => ⟨S16x1x526x7, .f32⟩
  | .hbm, ⟨59, _⟩ => ⟨S16x1x526x7, .f32⟩
  | .hbm, ⟨60, _⟩ => ⟨S16x1x526x519, .f32⟩
  | .hbm, ⟨61, _⟩ => ⟨S16x1x526x1, .f32⟩
  | .hbm, ⟨62, _⟩ => ⟨S16x1x526x7, .f32⟩
  | .hbm, ⟨63, _⟩ => ⟨S16x1x526x7, .f32⟩
  | .hbm, ⟨64, _⟩ => ⟨S16x1x526x526, .f32⟩
  | .hbm, ⟨65, _⟩ => ⟨S_, .f32⟩
  | .hbm, ⟨66, _⟩ => ⟨S_, .f32⟩
  | .hbm, ⟨67, _⟩ => ⟨S16x1x512x512, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S16x1x512x512, .f32⟩
  | .hbm, ⟨72, _⟩ => ⟨S16x1x512x512, .f32⟩
  | .hbm, ⟨73, _⟩ => ⟨S_, .f32⟩
  | .hbm, ⟨74, _⟩ => ⟨S16x1x512x512, .f32⟩
  | .hbm, ⟨75, _⟩ => ⟨S16x1x512x512, .f32⟩
  | .hbm, ⟨76, _⟩ => ⟨S16x1x512x512, .f32⟩
  | .hbm, ⟨77, _⟩ => ⟨S16x1x512x512, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v6 : Ref sig .tc := ⟨.hbm, 27, rfl⟩
abbrev main_cst_2 : Ref sig .tc := ⟨.hbm, 28, rfl⟩
abbrev main_v7 : Ref sig .tc := ⟨.hbm, 29, rfl⟩
abbrev main_v8 : Ref sig .tc := ⟨.hbm, 30, rfl⟩
abbrev main_cst_3 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v9 : Ref sig .tc := ⟨.hbm, 38, rfl⟩
abbrev main_cst_5 : Ref sig .tc := ⟨.hbm, 39, rfl⟩
abbrev main_v10 : Ref sig .tc := ⟨.hbm, 40, rfl⟩
abbrev main_v11 : Ref sig .tc := ⟨.hbm, 41, rfl⟩
abbrev main_cst_6 : Ref sig .tc := ⟨.hbm, 42, rfl⟩
abbrev main_v12 : Ref sig .tc := ⟨.hbm, 43, rfl⟩
abbrev main_v13 : Ref sig .tc := ⟨.hbm, 44, rfl⟩
abbrev main_cst_7 : Ref sig .tc := ⟨.hbm, 45, rfl⟩
abbrev main_v14 : Ref sig .tc := ⟨.hbm, 46, rfl⟩
abbrev main_v15 : Ref sig .tc := ⟨.hbm, 47, rfl⟩
abbrev main_c_8 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_v12 : Ref sig .tc := ⟨.hbm, 61, rfl⟩
abbrev main_call2_v13 : Ref sig .tc := ⟨.hbm, 62, rfl⟩
abbrev main_call2_v14 : Ref sig .tc := ⟨.hbm, 63, rfl⟩
abbrev main_v16 : Ref sig .tc := ⟨.hbm, 64, rfl⟩
abbrev main_cst_9 : Ref sig .tc := ⟨.hbm, 65, rfl⟩
abbrev main_v17 : Ref sig .tc := ⟨.hbm, 66, rfl⟩
abbrev main_v18 : Ref sig .tc := ⟨.hbm, 67, rfl⟩
abbrev main_cst_10 : Ref sig .tc := ⟨.hbm, 68, rfl⟩
abbrev main_cst_11 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_cst_12 : Ref sig .tc := ⟨.hbm, 78, rfl⟩
abbrev main_v22 : Ref sig .tc := ⟨.hbm, 79, rfl⟩
abbrev main_cst_13 : Ref sig .tc := ⟨.hbm, 80, rfl⟩
abbrev main_v23 : Ref sig .tc := ⟨.hbm, 81, rfl⟩

abbrev nD : Nat := 1
abbrev τ : Topo := Topo.v7x

variable {F : FTy → Type} [FloatOps F]

class Facts₀ : Prop where
  bcast_S_S16x3x512x512 : S_.BroadcastsInDim S16x3x512x512 (![] : Fin 0 → Fin S16x3x512x512.rank)
  reducesTo_S16x3x512x512_S16x512x512_d1 : S16x3x512x512.ReducesTo [1] S16x512x512
  h_S_ : 0 < S_.numel
  bcast_S16x512x512_S16x1x512x512_0_2_3 : S16x512x512.BroadcastsInDim S16x1x512x512 (![0, 2, 3] : Fin 3 → Fin S16x1x512x512.rank)
  slices_S16x1x512x512_S16x1x1x512_0_0_0_0 : S16x1x512x512.Slices ![0, 0, 0, 0] S16x1x1x512
  slices_S16x1x512x512_S16x1x7x512_0_0_1_0 : S16x1x512x512.Slices ![0, 0, 1, 0] S16x1x7x512
  concatenates_S16x1x7x512_S16x1x512x512_S16x1x519x512_d2 : Shape.Concatenates [S16x1x7x512, S16x1x512x512] S16x1x519x512 2
  slices_S16x1x519x512_S16x1x1x512_0_0_518_0 : S16x1x519x512.Slices ![0, 0, 518, 0] S16x1x1x512
  slices_S16x1x519x512_S16x1x7x512_0_0_511_0 : S16x1x519x512.Slices ![0, 0, 511, 0] S16x1x7x512
  concatenates_S16x1x519x512_S16x1x7x512_S16x1x526x512_d2 : Shape.Concatenates [S16x1x519x512, S16x1x7x512] S16x1x526x512 2
  slices_S16x1x526x512_S16x1x526x1_0_0_0_0 : S16x1x526x512.Slices ![0, 0, 0, 0] S16x1x526x1
  slices_S16x1x526x512_S16x1x526x7_0_0_0_1 : S16x1x526x512.Slices ![0, 0, 0, 1] S16x1x526x7
  concatenates_S16x1x526x7_S16x1x526x512_S16x1x526x519_d3 : Shape.Concatenates [S16x1x526x7, S16x1x526x512] S16x1x526x519 3
  slices_S16x1x526x519_S16x1x526x1_0_0_0_518 : S16x1x526x519.Slices ![0, 0, 0, 518] S16x1x526x1
  slices_S16x1x526x519_S16x1x526x7_0_0_0_511 : S16x1x526x519.Slices ![0, 0, 0, 511] S16x1x526x7
  concatenates_S16x1x526x519_S16x1x526x7_S16x1x526x526_d3 : Shape.Concatenates [S16x1x526x519, S16x1x526x7] S16x1x526x526 3
  bcast_S_S_ : S_.BroadcastsInDim S_ (![] : Fin 0 → Fin S_.rank)
  reduceWindows_S16x1x526x526_S16x1x512x512_w1s1p0_0_w1s1p0_0_w15s1p0_0_w15s1p0_0 : S16x1x526x526.ReduceWindows (![1, 1, 15, 15] : Fin 4 → Nat) ![1, 1, 1, 1] ![0, 0, 0, 0] ![0, 0, 0, 0] S16x1x512x512
  bcast_S_S16x1x512x512 : S_.BroadcastsInDim S16x1x512x512 (![] : Fin 0 → Fin S16x1x512x512.rank)
  reducesTo_S16x1x512x512_S_d0_1_2_3 : S16x1x512x512.ReducesTo [0, 1, 2, 3] S_

variable [Facts₀]

class Facts : Prop extends Facts₀ where

variable [Facts]
-- ==== Proof.KernelRun.lean ====
/-
  The kernel's result as ONE term of its two argument arrays.

  The call runs over 16 grid points. Point t stages image t of each argument batch (block number t of an array of
  extents [16, 3, 512, 512] cut into blocks [1, 3, 512, 512]: entry y of the block is the array's entry at
  (t, y 1, y 2, y 3)), and writes back one number, entry (t, 0, 0) of the [16, 1, 1] array of partial results; what
  that number is, as a function of the two staged images, is the body's stored value, kept folded here. After the
  call the sixteen partial results are summed from zero and the sum is divided by the literal 0x4A800000.

  Written here: a staged block as an image of the batch, the write-back of point t as block t of the array of partial
  results, the cover of that array by the sixteen blocks (index i is covered by point i 0), hence the array after the
  call, and the two host operations applied to it.
-/
import proofs.«124275_j16363825398434_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable {F : FTy → Type} [FloatOps F]
variable (m : (ℓ : Loc nD τ sig) → Buf (Elt F) ℓ) (ρ : Dev nD → PrngReg)

/-! ## The result as a term -/

/-- Image `b` of a batch: entry `y` is the batch's entry at `(b, y 1, y 2, y 3)`. -/
def imageOf (A : Vec F S16x3x512x512 .f32) (b : Fin 16) : Vec F S1x3x512x512 .f32 :=
  fun y => A (ix4 b (y 1 : Fin 3) (y 2 : Fin 512) (y 3 : Fin 512))

/-- The one index of the shape [1, 1, 1]. -/
abbrev theIdx : S1x1x1.Idx := ix3 (0 : Fin 1) (0 : Fin 1) (0 : Fin 1)

/-- The array of partial results: entry `(b, 0, 0)` is what the body stores from images `b` of the two batches. -/
def partials (A0 A1 : Vec F S16x3x512x512 .f32) : Vec F S16x1x1 .f32 :=
  fun i => out0_2 (imageOf A0 (i 0 : Fin 16)) (imageOf A1 (i 0 : Fin 16)) theIdx

/-- The host operations after the call: the sum of the partial results from zero, divided by the literal. -/
def tail (P : Vec F S16x1x1 .f32) : Vec F S_ .f32 :=
  Host.divf (F := F) (Host.reduceAdd (F := F) P (constant (F := F) S_ .f32 0x00000000#32) reducesTo_S16x1x1_S_d0_1_2 h_S_)
    (constant (F := F) S_ .f32 0x4A800000#32)

/-! ## The index maps over the grid -/

/-- Point `t` as a batch number. -/
def pt (t : Fin cfg0.N) : Fin 16 := ⟨t.val, by have h : cfg0.N = 16 := N_0; have := t.isLt; omega⟩

/-- The printed index maps, decided over the sixteen points: each window's block number is the point along the batch
    axis and zero along every other axis. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 3) = t.val ∧ win0_2.index t (1 : Fin 3) = 0 ∧ win0_2.index t (2 : Fin 3) = 0 :=
  (by decide +kernel : ∀ t : Fin grid0.N, _)

/-! ## A staged block is an image of the batch -/

/-- Window 0's block at point `t` is image `t` of the first argument array: a block's coordinate is its block number
    times the block's extent plus the coordinate inside the block, and the block number is `(t, 0, 0, 0)`. -/
theorem iblk0_eq (c : Dev nD) (t : Fin cfg0.N) :
    (iblk m c 0 t : Vec F S1x3x512x512 .f32) = imageOf (V m c main_arg0) (pt t) := by
  obtain ⟨e0, e1, e2, e3, -⟩ := idx_facts t
  funext y
  unfold iblk imageOf
  rw [View.read_apply]
  show V m c main_arg0 (((cfg0.win 0).blk t).view.emb y) = V m c main_arg0 _
  congr 1
  funext a
  apply Fin.ext
  match a with
  | ⟨0, _⟩ => show win0_0.index t (0 : Fin 4) * 1 + 1 * (y 0).val = t.val; have hy : (y 0).val < 1 := (y 0).isLt; omega
  | ⟨1, _⟩ => show win0_0.index t (1 : Fin 4) * 3 + 1 * (y 1).val = (y 1).val; omega
  | ⟨2, _⟩ => show win0_0.index t (2 : Fin 4) * 512 + 1 * (y 2).val = (y 2).val; omega
  | ⟨3, _⟩ => show win0_0.index t (3 : Fin 4) * 512 + 1 * (y 3).val = (y 3).val; omega

/-- Window 1's block at point `t` is image `t` of the second argument array. -/
theorem iblk1_eq (c : Dev nD) (t : Fin cfg0.N) :
    (iblk m c 1 t : Vec F S1x3x512x512 .f32) = imageOf (V m c main_arg1) (pt t) := by
  obtain ⟨-, -, -, -, e0, e1, e2, e3, -⟩ := idx_facts t
  funext y
  unfold iblk imageOf
  rw [View.read_apply]
  show V m c main_arg1 (((cfg0.win 1).blk t).view.emb y) = V m c main_arg1 _
  congr 1
  funext a
  apply Fin.ext
  match a with
  | ⟨0, _⟩ => show win0_1.index t (0 : Fin 4) * 1 + 1 * (y 0).val = t.val; have hy : (y 0).val < 1 := (y 0).isLt; omega
  | ⟨1, _⟩ => show win0_1.index t (1 : Fin 4) * 3 + 1 * (y 1).val = (y 1).val; omega
  | ⟨2, _⟩ => show win0_1.index t (2 : Fin 4) * 512 + 1 * (y 2).val = (y 2).val; omega
  | ⟨3, _⟩ => show win0_1.index t (3 : Fin 4) * 512 + 1 * (y 3).val = (y 3).val; omega

/-! ## The write-back of a point is a block of the array of partial results -/

/-- The shape [1, 1, 1] has one index. -/
theorem idx_one (j : S1x1x1.Idx) : j = theIdx := by
  funext a
  apply Fin.ext
  match a with
  | ⟨0, _⟩ => have h : (j 0).val < 1 := (j 0).isLt; show (j 0).val = 0; omega
  | ⟨1, _⟩ => have h : (j 1).val < 1 := (j 1).isLt; show (j 1).val = 0; omega
  | ⟨2, _⟩ => have h : (j 2).val < 1 := (j 2).isLt; show (j 2).val = 0; omega

/-- What the body stores from images `b` of two batches is the array of partial results at any index whose batch
    coordinate is `b`. -/
theorem stored_eq (A0 A1 : Vec F S16x3x512x512 .f32) (b : Fin 16) (j : S1x1x1.Idx) (i : S16x1x1.Idx)
    (hi : (i 0).val = b.val) :
    out0_2 (imageOf A0 b) (imageOf A1 b) j = partials A0 A1 i := by
  have hb : (i 0 : Fin 16) = b := Fin.ext hi
  unfold partials
  rw [idx_one j, hb]

/-- What point `t` writes back is block `t` of the array of partial results of the argument arrays as the call finds
    them. -/
theorem flushed_eq (c : Dev nD) (t : Fin cfg0.N) :
    (dats m 0 c).flushed 2 t = ((cfg0.win 2).blk t).view.read (Elt F) (partials (V m c main_arg0) (V m c main_arg1)) := by
  show (cfg0.win 2).cut (grid0.coords t) ((dats m 0 c).after 2 t) = _
  rw [after0_2, iblk0_eq, iblk1_eq]
  obtain ⟨-, -, -, -, -, -, -, -, e0, -⟩ := idx_facts t
  funext j
  show out0_2 (imageOf (V m c main_arg0) (pt t)) (imageOf (V m c main_arg1) (pt t)) j
    = partials (V m c main_arg0) (V m c main_arg1) (((cfg0.win 2).blk t).view.emb j)
  refine stored_eq _ _ (pt t) j _ ?_
  show win0_2.index t (0 : Fin 3) * 1 + 1 * (j 0).val = t.val
  have hj : (j 0).val < 1 := (j 0).isLt
  omega

/-! ## The sixteen blocks cover the array -/

/-- An index of the array is in point `t`'s block iff each coordinate is in the block's range on its axis. -/
theorem mem_blk (t : Fin cfg0.N) (i : S16x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v0).slice (win0_2.rect t)).set ↔ _
  rw [View.set_slice_whole, Rect.mem_set_unit]
  exact Iff.rfl

/-- Index `i` lies in the block of point `i 0`. -/
theorem cover (i : S16x1x1.Idx) : ∃ t : Fin cfg0.N, (cfg0.win 2).flush t = true ∧ i ∈ ((cfg0.win 2).blk t).view.set := by
  have hN : cfg0.N = 16 := N_0
  have h0 : (i 0).val < 16 := (i 0).isLt
  have h1 : (i 1).val < 1 := (i 1).isLt
  have h2 : (i 2).val < 1 := (i 2).isLt
  have key : ∀ t : Fin cfg0.N, t.val = (i 0).val → i ∈ ((cfg0.win 2).blk t).view.set := by
    intro t ht
    rw [mem_blk]
    obtain ⟨-, -, -, -, -, -, -, -, e0, e1, e2⟩ := idx_facts t
    intro a
    match a with
    | ⟨0, _⟩ => show win0_2.index t (0 : Fin 3) * 1 ≤ (i 0).val ∧ (i 0).val < win0_2.index t (0 : Fin 3) * 1 + 1; omega
    | ⟨1, _⟩ => show win0_2.index t (1 : Fin 3) * 1 ≤ (i 1).val ∧ (i 1).val < win0_2.index t (1 : Fin 3) * 1 + 1; omega
    | ⟨2, _⟩ => show win0_2.index t (2 : Fin 3) * 1 ≤ (i 2).val ∧ (i 2).val < win0_2.index t (2 : Fin 3) * 1 + 1; omega
  exact ⟨⟨(i 0).val, by omega⟩, flush0_2 _, key _ rfl⟩

/-- The array after the call is the array of partial results of the two argument arrays: every point writes back its
    block of it, and the blocks cover it. -/
theorem final (c : Dev nD) :
    (dats m 0 c).arrAt 2 cfg0.N = partials (m ((c.tc : Thread nD τ).loc main_arg0)) (m ((c.tc : Thread nD τ).loc main_arg1)) :=
  (dats m 0 c).arrAt_eq_of_cover 2 (partials (V m c main_arg0) (V m c main_arg1)) (fun t _ => flushed_eq m c t) cover

/-! ## The host operations after the call -/

/-- The result buffer after the four host operations: their term applied to the array the call left. -/
theorem tail_eq (c : Dev nD) :
    Pipeline.afterTail₀ cfgs (dats m) 0 (V0 m) [hostOps1] c main_v2
      = tail (partials (m ((c.tc : Thread nD τ).loc main_arg0)) (m ((c.tc : Thread nD τ).loc main_arg1))) := by
  unfold Pipeline.afterTail₀
  show StableHlo.after hostOps1 _ (Proc.devRef .tc main_v2) = _
  after_results
  exact congrArg (tail (F := F))
    ((Pipeline.withArrays_arr spec0 launch0.win.arr_inj c (V0 m c) (fun w => (dats m 0 c).arrAt w cfg0.N) 2).trans (final m c))

/-! ## The run -/

/-- The result buffer is none of the call's arrays and is not scoped, so the call passes it by. -/
theorem v2_rest : main_v2 ∈ Pipeline.restRefs sig (cfgs 0).spec :=
  Pipeline.mem_restRefs_of main_v2 rfl (by decide)

/-- Every run ends with the result buffer at the host operations' term of the partial results of the argument arrays,
    and with the argument arrays unchanged. -/
theorem run : θ_run defs (onTc (τ := τ) (main (F := F))) ⟨m, fun _ => 0, ρ⟩ fun r => ∀ c : Dev nD,
      r.2.mem ((c.tc : Thread nD τ).loc main_v2)
        = tail (partials (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v2 v2_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.RefTerm.lean ====
/-
  The reference program's result as ONE term of its two argument arrays, cut into named stages.

  For an image batch x : [16, 3, 512, 512] the reference computes, stage by stage,
    unitRange x     = (x + 1) / 2                                  entrywise,
    channelMin y    = the minimum over the three channels, kept as an axis of extent one,
    reflectPad z    = z extended by seven rows above and below and seven columns left and right, each new row or
                      column a mirror image about the border row or column (the border itself is not repeated),
    erode w         = the minimum over every 15 x 15 window of w (a window minimum from +inf),
    clamp v         = min 0.1 (max 0 v),
  and the loss is the sum over all entries of (dark a - dark b)^2 divided by 16 * 512 * 512.
  Each definition below is the program's own spelling of that stage, operation by operation, so that the run's
  result is this term by unfolding alone; what each stage computes at an index is proved elsewhere.
-/
import proofs.«124275_j16363825398434_2_alg».proof.ReferenceIdeal

noncomputable section

namespace Cert.ReferenceIdeal.RefValue

open Idealize.ShloMosaic Cert.ReferenceIdeal

variable {F : FTy → Type} [FloatOps F] [Facts]
open Facts₀ Facts

/-- (x + 1) / 2, entry by entry. -/
def unitRange (x : FVec F S16x3x512x512 .f32) : FVec F S16x3x512x512 .f32 :=
  Host.divf (addf x (broadcastInDim S16x3x512x512 ![] bcast_S_S16x3x512x512 (constant S_ .f32 0x3F800000#32)))
    (broadcastInDim S16x3x512x512 ![] bcast_S_S16x3x512x512 (constant S_ .f32 0x40000000#32))

/-- The minimum over the channel axis, from +inf, the axis kept with extent one. -/
def channelMin (y : FVec F S16x3x512x512 .f32) : FVec F S16x1x512x512 .f32 :=
  broadcastInDim S16x1x512x512 ![0, 2, 3] bcast_S16x512x512_S16x1x512x512_0_2_3
    (Host.reduce FloatOps.minimumf y (constant S_ .f32 0x7F800000#32) reducesTo_S16x3x512x512_S16x512x512_d1 h_S_)

/-- Seven mirrored rows set above: rows 1..7 reversed, then the array. -/
def padAbove (z : FVec F S16x1x512x512 .f32) : FVec F S16x1x519x512 .f32 :=
  concatenate S16x1x519x512 2
    [⟨S16x1x7x512, Host.reverse [2] (extractStridedSlice S16x1x7x512 ![0, 0, 1, 0] z slices_S16x1x512x512_S16x1x7x512_0_0_1_0)⟩,
     ⟨S16x1x512x512, z⟩] concatenates_S16x1x7x512_S16x1x512x512_S16x1x519x512_d2

/-- Seven mirrored rows set below: the array, then its rows 511..517 reversed. -/
def padBelow (z : FVec F S16x1x519x512 .f32) : FVec F S16x1x526x512 .f32 :=
  concatenate S16x1x526x512 2
    [⟨S16x1x519x512, z⟩,
     ⟨S16x1x7x512, Host.reverse [2] (extractStridedSlice S16x1x7x512 ![0, 0, 511, 0] z slices_S16x1x519x512_S16x1x7x512_0_0_511_0)⟩]
    concatenates_S16x1x519x512_S16x1x7x512_S16x1x526x512_d2

/-- Seven mirrored columns set on the left: columns 1..7 reversed, then the array. -/
def padLeft (z : FVec F S16x1x526x512 .f32) : FVec F S16x1x526x519 .f32 :=
  concatenate S16x1x526x519 3
    [⟨S16x1x526x7, Host.reverse [3] (extractStridedSlice S16x1x526x7 ![0, 0, 0, 1] z slices_S16x1x526x512_S16x1x526x7_0_0_0_1)⟩,
     ⟨S16x1x526x512, z⟩] concatenates_S16x1x526x7_S16x1x526x512_S16x1x526x519_d3

/-- Seven mirrored columns set on the right: the array, then its columns 511..517 reversed. -/
def padRight (z : FVec F S16x1x526x519 .f32) : FVec F S16x1x526x526 .f32 :=
  concatenate S16x1x526x526 3
    [⟨S16x1x526x519, z⟩,
     ⟨S16x1x526x7, Host.reverse [3] (extractStridedSlice S16x1x526x7 ![0, 0, 0, 511] z slices_S16x1x526x519_S16x1x526x7_0_0_0_511)⟩]
    concatenates_S16x1x526x519_S16x1x526x7_S16x1x526x526_d3

/-- The reflect padding by seven on both image axes. -/
def reflectPad (z : FVec F S16x1x512x512 .f32) : FVec F S16x1x526x526 .f32 :=
  padRight (padLeft (padBelow (padAbove z)))

/-- The minimum over each 15 x 15 window, from +inf. -/
def erode (w : FVec F S16x1x526x526 .f32) : FVec F S16x1x512x512 .f32 :=
  Host.reduceWindow FloatOps.minimumf ![1, 1, 15, 15] ![1, 1, 1, 1] ![0, 0, 0, 0] ![0, 0, 0, 0] w
    (broadcastInDim S_ ![] bcast_S_S_ (constant S_ .f32 0x7F800000#32))
    reduceWindows_S16x1x526x526_S16x1x512x512_w1s1p0_0_w1s1p0_0_w15s1p0_0_w15s1p0_0 h_S_

/-- min 0.1 (max 0 v), entry by entry. -/
def clamp (v : FVec F S16x1x512x512 .f32) : FVec F S16x1x512x512 .f32 :=
  minimumf (broadcastInDim S16x1x512x512 ![] bcast_S_S16x1x512x512 (constant S_ .f32 0x3DCCCCCD#32))
    (maximumf (broadcastInDim S16x1x512x512 ![] bcast_S_S16x1x512x512 (constant S_ .f32 0x00000000#32)) v)

/-- The dark channel of an image batch. -/
def darkChannel (x : FVec F S16x3x512x512 .f32) : FVec F S16x1x512x512 .f32 :=
  clamp (erode (reflectPad (channelMin (unitRange x))))

/-- The reference's result: the mean of the squared difference of the two dark channels. -/
def refLoss (a b : FVec F S16x3x512x512 .f32) : FVec F S_ .f32 :=
  Host.divf
    (Host.reduceAdd (mulf (subf (darkChannel a) (darkChannel b)) (subf (darkChannel a) (darkChannel b)))
      (constant S_ .f32 0x00000000#32) reducesTo_S16x1x512x512_S_d0_1_2_3 h_S_)
    (constant S_ .f32 0x4A800000#32)

end Cert.ReferenceIdeal.RefValue

end
-- ==== Proof.RefRun.lean ====
/-
  The reference program's @main as one straight line of host operations, and what a run of it leaves behind.

  @main calls two outlined functions, the reflect padding (which itself calls the two axis reversals) and the
  clamp. A call executes the callee's body on the operands, each value of the body in a buffer of the call's own
  record, so @main is the line of its own operations with each callee's operations set in at the call: eighty
  in all. For the first argument these are the ten that scale to the unit range and take the channel minimum (the
  last of them an integer zero handed to the padding, which never reads it), the sixteen of the padding (four
  border slices that nothing reads, four slices each reversed and concatenated), the three of the 15 x 15 window
  minimum, two constants, and the six of the clamp (its two conversions are the identity); the same thirty-seven
  for the second argument; then the difference, its square, the sum from zero, and the division by the count.
  Folding the operations' results over the launch contents gives, at the result buffer, the term `refLoss` of
  the two arguments' contents, and leaves the arguments as they were.
-/
import proofs.«124275_j16363825398434_2_alg».proof.Proof.Gen.ReferenceIdeal
import proofs.«124275_j16363825398434_2_alg».proof.Proof.RefTerm
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

/-- @main's eighty operations in order, each call replaced by the callee's operations over that call's buffers. -/
abbrev ops : List (HloOp τ sig (Elt F)) :=
  [ nullary main_cst (constant S_ .f32 0x3F800000#32),
    unary main_cst main_v0 (broadcastInDim S16x3x512x512 ![] bcast_S_S16x3x512x512 : (⟨S_, .f32⟩ : BufTy).Contents (Elt F) → (⟨S16x3x512x512, .f32⟩ : BufTy).Contents (Elt F)),
    binary main_arg0 main_v0 main_v1 (addf : (⟨S16x3x512x512, .f32⟩ : BufTy).Contents (Elt F) → (⟨S16x3x512x512, .f32⟩ : BufTy).Contents (Elt F) → (⟨S16x3x512x512, .f32⟩ : BufTy).Contents (Elt F)),
    nullary main_cst_0 (constant S_ .f32 0x40000000#32),
    unary main_cst_0 main_v2 (broadcastInDim S16x3x512x512 ![] bcast_S_S16x3x512x512 : (⟨S_, .f32⟩ : BufTy).Contents (Elt F) → (⟨S16x3x512x512, .f32⟩ : BufTy).Contents (Elt F)),
    binary main_v1 main_v2 main_v3 (Host.divf : (⟨S16x3x512x512, .f32⟩ : BufTy).Contents (Elt F) → (⟨S16x3x512x512, .f32⟩ : BufTy).Contents (Elt F) → (⟨S16x3x512x512, .f32⟩ : BufTy).Contents (Elt F)),
    nullary main_cst_1 (constant S_ .f32 0x7F800000#32),
    binary main_v3 main_cst_1 main_v4 ((fun x v => Host.reduce FloatOps.minimumf x v reducesTo_S16x3x512x512_S16x512x512_d1 h_S_) : (⟨S16x3x512x512, .f32⟩ : BufTy).Contents (Elt F) → (⟨S_, .f32⟩ : BufTy).Contents (Elt F) → (⟨S16x512x512, .f32⟩ : BufTy).Contents (Elt F)),
    unary main_v4 main_v5 (broadcastInDim S16x1x512x512 ![0, 2, 3] bcast_S16x512x512_S16x1x512x512_0_2_3 : (⟨S16x512x512, .f32⟩ : BufTy).Contents (Elt F) → (⟨S16x1x512x512, .f32⟩ : BufTy).Contents (Elt F)),
    nullary main_c (constantI S_ 32 0#32),
    TRef.unary (.of main_v5 : TRef sig ⟨S16x1x512x512, .f32⟩) main_call0.v0 (extractStridedSlice S16x1x1x512 ![0, 0, 0, 0] · slices_S16x1x512x512_S16x1x1x512_0_0_0_0),
    TRef.unary (.of main_v5 : TRef sig ⟨S16x1x512x512, .f32⟩) main_call0.v1 (extractStridedSlice S16x1x7x512 ![0, 0, 1, 0] · slices_S16x1x512x512_S16x1x7x512_0_0_1_0),
    TRef.unary main_call0.v1 main_call0.call0.v0 (Host.reverse [2]),
    TRef.binary main_call0.call0.v0 (.of main_v5 : TRef sig ⟨S16x1x512x512, .f32⟩) main_call0.v3 (fun a b => concatenate S16x1x519x512 2 [⟨S16x1x7x512, a⟩, ⟨S16x1x512x512, b⟩] concatenates_S16x1x7x512_S16x1x512x512_S16x1x519x512_d2),
    TRef.unary main_call0.v3 main_call0.v4 (extractStridedSlice S16x1x1x512 ![0, 0, 518, 0] · slices_S16x1x519x512_S16x1x1x512_0_0_518_0),
    TRef.unary main_call0.v3 main_call0.v5 (extractStridedSlice S16x1x7x512 ![0, 0, 511, 0] · slices_S16x1x519x512_S16x1x7x512_0_0_511_0),
    TRef.unary main_call0.v5 main_call0.call1.v0 (Host.reverse [2]),
    TRef.binary main_call0.v3 main_call0.call1.v0 main_call0.v7 (fun a b => concatenate S16x1x526x512 2 [⟨S16x1x519x512, a⟩, ⟨S16x1x7x512, b⟩] concatenates_S16x1x519x512_S16x1x7x512_S16x1x526x512_d2),
    TRef.unary main_call0.v7 main_call0.v8 (extractStridedSlice S16x1x526x1 ![0, 0, 0, 0] · slices_S16x1x526x512_S16x1x526x1_0_0_0_0),
    TRef.unary main_call0.v7 main_call0.v9 (extractStridedSlice S16x1x526x7 ![0, 0, 0, 1] · slices_S16x1x526x512_S16x1x526x7_0_0_0_1),
    TRef.unary main_call0.v9 main_call0.call2.v0 (Host.reverse [3]),
    TRef.binary main_call0.call2.v0 main_call0.v7 main_call0.v11 (fun a b => concatenate S16x1x526x519 3 [⟨S16x1x526x7, a⟩, ⟨S16x1x526x512, b⟩] concatenates_S16x1x526x7_S16x1x526x512_S16x1x526x519_d3),
    TRef.unary main_call0.v11 main_call0.v12 (extractStridedSlice S16x1x526x1 ![0, 0, 0, 518] · slices_S16x1x526x519_S16x1x526x1_0_0_0_518),
    TRef.unary main_call0.v11 main_call0.v13 (extractStridedSlice S16x1x526x7 ![0, 0, 0, 511] · slices_S16x1x526x519_S16x1x526x7_0_0_0_511),
    TRef.unary main_call0.v13 main_call0.call3.v0 (Host.reverse [3]),
    TRef.binary main_call0.v11 main_call0.call3.v0 main_call0.v15 (fun a b => concatenate S16x1x526x526 3 [⟨S16x1x526x519, a⟩, ⟨S16x1x526x7, b⟩] concatenates_S16x1x526x519_S16x1x526x7_S16x1x526x526_d3),
    nullary main_cst_2 (constant S_ .f32 0x7F800000#32),
    unary main_cst_2 main_v7 (broadcastInDim S_ ![] bcast_S_S_ : (⟨S_, .f32⟩ : BufTy).Contents (Elt F) → (⟨S_, .f32⟩ : BufTy).Contents (Elt F)),
    binary main_v6 main_v7 main_v8 ((fun x v => Host.reduceWindow FloatOps.minimumf ![1, 1, 15, 15] ![1, 1, 1, 1] ![0, 0, 0, 0] ![0, 0, 0, 0] x v reduceWindows_S16x1x526x526_S16x1x512x512_w1s1p0_0_w1s1p0_0_w15s1p0_0_w15s1p0_0 h_S_) : (⟨S16x1x526x526, .f32⟩ : BufTy).Contents (Elt F) → (⟨S_, .f32⟩ : BufTy).Contents (Elt F) → (⟨S16x1x512x512, .f32⟩ : BufTy).Contents (Elt F)),
    nullary main_cst_3 (constant S_ .f32 0x00000000#32),
    nullary main_cst_4 (constant S_ .f32 0x3DCCCCCD#32),
    TRef.unary (.of main_cst_3 : TRef sig ⟨S_, .f32⟩) main_call1.v0 id,
    TRef.unary main_call1.v0 main_call1.v1 (broadcastInDim S16x1x512x512 ![] bcast_S_S16x1x512x512),
    TRef.binary main_call1.v1 (.of main_v8 : TRef sig ⟨S16x1x512x512, .f32⟩) main_call1.v2 maximumf,
    TRef.unary (.of main_cst_4 : TRef sig ⟨S_, .f32⟩) main_call1.v3 id,
    TRef.unary main_call1.v3 main_call1.v4 (broadcastInDim S16x1x512x512 ![] bcast_S_S16x1x512x512),
    TRef.binary main_call1.v4 main_call1.v2 main_call1.v5 minimumf,
    nullary main_cst_5 (constant S_ .f32 0x3F800000#32),
    unary main_cst_5 main_v10 (broadcastInDim S16x3x512x512 ![] bcast_S_S16x3x512x512 : (⟨S_, .f32⟩ : BufTy).Contents (Elt F) → (⟨S16x3x512x512, .f32⟩ : BufTy).Contents (Elt F)),
    binary main_arg1 main_v10 main_v11 (addf : (⟨S16x3x512x512, .f32⟩ : BufTy).Contents (Elt F) → (⟨S16x3x512x512, .f32⟩ : BufTy).Contents (Elt F) → (⟨S16x3x512x512, .f32⟩ : BufTy).Contents (Elt F)),
    nullary main_cst_6 (constant S_ .f32 0x40000000#32),
    unary main_cst_6 main_v12 (broadcastInDim S16x3x512x512 ![] bcast_S_S16x3x512x512 : (⟨S_, .f32⟩ : BufTy).Contents (Elt F) → (⟨S16x3x512x512, .f32⟩ : BufTy).Contents (Elt F)),
    binary main_v11 main_v12 main_v13 (Host.divf : (⟨S16x3x512x512, .f32⟩ : BufTy).Contents (Elt F) → (⟨S16x3x512x512, .f32⟩ : BufTy).Contents (Elt F) → (⟨S16x3x512x512, .f32⟩ : BufTy).Contents (Elt F)),
    nullary main_cst_7 (constant S_ .f32 0x7F800000#32),
    binary main_v13 main_cst_7 main_v14 ((fun x v => Host.reduce FloatOps.minimumf x v reducesTo_S16x3x512x512_S16x512x512_d1 h_S_) : (⟨S16x3x512x512, .f32⟩ : BufTy).Contents (Elt F) → (⟨S_, .f32⟩ : BufTy).Contents (Elt F) → (⟨S16x512x512, .f32⟩ : BufTy).Contents (Elt F)),
    unary main_v14 main_v15 (broadcastInDim S16x1x512x512 ![0, 2, 3] bcast_S16x512x512_S16x1x512x512_0_2_3 : (⟨S16x512x512, .f32⟩ : BufTy).Contents (Elt F) → (⟨S16x1x512x512, .f32⟩ : BufTy).Contents (Elt F)),
    nullary main_c_8 (constantI S_ 32 0#32),
    TRef.unary (.of main_v15 : TRef sig ⟨S16x1x512x512, .f32⟩) main_call2.v0 (extractStridedSlice S16x1x1x512 ![0, 0, 0, 0] · slices_S16x1x512x512_S16x1x1x512_0_0_0_0),
    TRef.unary (.of main_v15 : TRef sig ⟨S16x1x512x512, .f32⟩) main_call2.v1 (extractStridedSlice S16x1x7x512 ![0, 0, 1, 0] · slices_S16x1x512x512_S16x1x7x512_0_0_1_0),
    TRef.unary main_call2.v1 main_call2.call0.v0 (Host.reverse [2]),
    TRef.binary main_call2.call0.v0 (.of main_v15 : TRef sig ⟨S16x1x512x512, .f32⟩) main_call2.v3 (fun a b => concatenate S16x1x519x512 2 [⟨S16x1x7x512, a⟩, ⟨S16x1x512x512, b⟩] concatenates_S16x1x7x512_S16x1x512x512_S16x1x519x512_d2),
    TRef.unary main_call2.v3 main_call2.v4 (extractStridedSlice S16x1x1x512 ![0, 0, 518, 0] · slices_S16x1x519x512_S16x1x1x512_0_0_518_0),
    TRef.unary main_call2.v3 main_call2.v5 (extractStridedSlice S16x1x7x512 ![0, 0, 511, 0] · slices_S16x1x519x512_S16x1x7x512_0_0_511_0),
    TRef.unary main_call2.v5 main_call2.call1.v0 (Host.reverse [2]),
    TRef.binary main_call2.v3 main_call2.call1.v0 main_call2.v7 (fun a b => concatenate S16x1x526x512 2 [⟨S16x1x519x512, a⟩, ⟨S16x1x7x512, b⟩] concatenates_S16x1x519x512_S16x1x7x512_S16x1x526x512_d2),
    TRef.unary main_call2.v7 main_call2.v8 (extractStridedSlice S16x1x526x1 ![0, 0, 0, 0] · slices_S16x1x526x512_S16x1x526x1_0_0_0_0),
    TRef.unary main_call2.v7 main_call2.v9 (extractStridedSlice S16x1x526x7 ![0, 0, 0, 1] · slices_S16x1x526x512_S16x1x526x7_0_0_0_1),
    TRef.unary main_call2.v9 main_call2.call2.v0 (Host.reverse [3]),
    TRef.binary main_call2.call2.v0 main_call2.v7 main_call2.v11 (fun a b => concatenate S16x1x526x519 3 [⟨S16x1x526x7, a⟩, ⟨S16x1x526x512, b⟩] concatenates_S16x1x526x7_S16x1x526x512_S16x1x526x519_d3),
    TRef.unary main_call2.v11 main_call2.v12 (extractStridedSlice S16x1x526x1 ![0, 0, 0, 518] · slices_S16x1x526x519_S16x1x526x1_0_0_0_518),
    TRef.unary main_call2.v11 main_call2.v13 (extractStridedSlice S16x1x526x7 ![0, 0, 0, 511] · slices_S16x1x526x519_S16x1x526x7_0_0_0_511),
    TRef.unary main_call2.v13 main_call2.call3.v0 (Host.reverse [3]),
    TRef.binary main_call2.v11 main_call2.call3.v0 main_call2.v15 (fun a b => concatenate S16x1x526x526 3 [⟨S16x1x526x519, a⟩, ⟨S16x1x526x7, b⟩] concatenates_S16x1x526x519_S16x1x526x7_S16x1x526x526_d3),
    nullary main_cst_9 (constant S_ .f32 0x7F800000#32),
    unary main_cst_9 main_v17 (broadcastInDim S_ ![] bcast_S_S_ : (⟨S_, .f32⟩ : BufTy).Contents (Elt F) → (⟨S_, .f32⟩ : BufTy).Contents (Elt F)),
    binary main_v16 main_v17 main_v18 ((fun x v => Host.reduceWindow FloatOps.minimumf ![1, 1, 15, 15] ![1, 1, 1, 1] ![0, 0, 0, 0] ![0, 0, 0, 0] x v reduceWindows_S16x1x526x526_S16x1x512x512_w1s1p0_0_w1s1p0_0_w15s1p0_0_w15s1p0_0 h_S_) : (⟨S16x1x526x526, .f32⟩ : BufTy).Contents (Elt F) → (⟨S_, .f32⟩ : BufTy).Contents (Elt F) → (⟨S16x1x512x512, .f32⟩ : BufTy).Contents (Elt F)),
    nullary main_cst_10 (constant S_ .f32 0x00000000#32),
    nullary main_cst_11 (constant S_ .f32 0x3DCCCCCD#32),
    TRef.unary (.of main_cst_10 : TRef sig ⟨S_, .f32⟩) main_call3.v0 id,
    TRef.unary main_call3.v0 main_call3.v1 (broadcastInDim S16x1x512x512 ![] bcast_S_S16x1x512x512),
    TRef.binary main_call3.v1 (.of main_v18 : TRef sig ⟨S16x1x512x512, .f32⟩) main_call3.v2 maximumf,
    TRef.unary (.of main_cst_11 : TRef sig ⟨S_, .f32⟩) main_call3.v3 id,
    TRef.unary main_call3.v3 main_call3.v4 (broadcastInDim S16x1x512x512 ![] bcast_S_S16x1x512x512),
    TRef.binary main_call3.v4 main_call3.v2 main_call3.v5 minimumf,
    binary main_v9 main_v19 main_v20 (subf : (⟨S16x1x512x512, .f32⟩ : BufTy).Contents (Elt F) → (⟨S16x1x512x512, .f32⟩ : BufTy).Contents (Elt F) → (⟨S16x1x512x512, .f32⟩ : BufTy).Contents (Elt F)),
    binary main_v20 main_v20 main_v21 (mulf : (⟨S16x1x512x512, .f32⟩ : BufTy).Contents (Elt F) → (⟨S16x1x512x512, .f32⟩ : BufTy).Contents (Elt F) → (⟨S16x1x512x512, .f32⟩ : BufTy).Contents (Elt F)),
    nullary main_cst_12 (constant S_ .f32 0x00000000#32),
    binary main_v21 main_cst_12 main_v22 ((fun x v => Host.reduceAdd x v reducesTo_S16x1x512x512_S_d0_1_2_3 h_S_) : (⟨S16x1x512x512, .f32⟩ : BufTy).Contents (Elt F) → (⟨S_, .f32⟩ : BufTy).Contents (Elt F) → (⟨S_, .f32⟩ : BufTy).Contents (Elt F)),
    nullary main_cst_13 (constant S_ .f32 0x4A800000#32),
    binary main_v22 main_cst_13 main_v23 (Host.divf : (⟨S_, .f32⟩ : BufTy).Contents (Elt F) → (⟨S_, .f32⟩ : BufTy).Contents (Elt F) → (⟨S_, .f32⟩ : BufTy).Contents (Elt F)) ]

-- eighty steps deep on each side
set_option maxRecDepth 16384 in
/-- @main is that line: a call is the callee's body applied, whose steps run before the caller's next one, so
    with the four functions' bodies unfolded at their calls both sides are the same chain of eighty steps. -/
theorem main_eq (c : Dev nD) : main (F := F) c = seq ops := rfl

/-- No TensorCore buffer of the program is scoped. -/
theorem scopedRefs_eq : (Finset.univ.filter fun b : Ref sig .tc => b.isScoped) = ∅ := by decide
/-- No semaphore of the program is scoped. -/
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., binary_bufs_sub .., unary_bufs_sub .., nullary_bufs_sub .., unary_bufs_sub .., unary_bufs_sub ..,
    unary_bufs_sub .., binary_bufs_sub .., unary_bufs_sub .., unary_bufs_sub .., unary_bufs_sub .., binary_bufs_sub ..,
    unary_bufs_sub .., unary_bufs_sub .., unary_bufs_sub .., binary_bufs_sub .., unary_bufs_sub .., unary_bufs_sub ..,
    unary_bufs_sub .., binary_bufs_sub .., nullary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., nullary_bufs_sub .., unary_bufs_sub ..,
    unary_bufs_sub .., unary_bufs_sub .., binary_bufs_sub .., unary_bufs_sub .., unary_bufs_sub .., unary_bufs_sub ..,
    binary_bufs_sub .., unary_bufs_sub .., unary_bufs_sub .., unary_bufs_sub .., binary_bufs_sub .., unary_bufs_sub ..,
    unary_bufs_sub .., unary_bufs_sub .., binary_bufs_sub .., nullary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., binary_bufs_sub .., binary_bufs_sub .., nullary_bufs_sub .., binary_bufs_sub ..,
    nullary_bufs_sub .., binary_bufs_sub ..⟩

/-! ## The line in seven stretches -/

/-- The first argument scaled to the unit range and its channel minimum: ten operations, ending in %5 and the unread integer zero. -/
abbrev A0 : List (HloOp τ sig (Elt F)) :=
  [ nullary main_cst (constant S_ .f32 0x3F800000#32),
    unary main_cst main_v0 (broadcastInDim S16x3x512x512 ![] bcast_S_S16x3x512x512 : (⟨S_, .f32⟩ : BufTy).Contents (Elt F) → (⟨S16x3x512x512, .f32⟩ : BufTy).Contents (Elt F)),
    binary main_arg0 main_v0 main_v1 (addf : (⟨S16x3x512x512, .f32⟩ : BufTy).Contents (Elt F) → (⟨S16x3x512x512, .f32⟩ : BufTy).Contents (Elt F) → (⟨S16x3x512x512, .f32⟩ : BufTy).Contents (Elt F)),
    nullary main_cst_0 (constant S_ .f32 0x40000000#32),
    unary main_cst_0 main_v2 (broadcastInDim S16x3x512x512 ![] bcast_S_S16x3x512x512 : (⟨S_, .f32⟩ : BufTy).Contents (Elt F) → (⟨S16x3x512x512, .f32⟩ : BufTy).Contents (Elt F)),
    binary main_v1 main_v2 main_v3 (Host.divf : (⟨S16x3x512x512, .f32⟩ : BufTy).Contents (Elt F) → (⟨S16x3x512x512, .f32⟩ : BufTy).Contents (Elt F) → (⟨S16x3x512x512, .f32⟩ : BufTy).Contents (Elt F)),
    nullary main_cst_1 (constant S_ .f32 0x7F800000#32),
    binary main_v3 main_cst_1 main_v4 ((fun x v => Host.reduce FloatOps.minimumf x v reducesTo_S16x3x512x512_S16x512x512_d1 h_S_) : (⟨S16x3x512x512, .f32⟩ : BufTy).Contents (Elt F) → (⟨S_, .f32⟩ : BufTy).Contents (Elt F) → (⟨S16x512x512, .f32⟩ : BufTy).Contents (Elt F)),
    unary main_v4 main_v5 (broadcastInDim S16x1x512x512 ![0, 2, 3] bcast_S16x512x512_S16x1x512x512_0_2_3 : (⟨S16x512x512, .f32⟩ : BufTy).Contents (Elt F) → (⟨S16x1x512x512, .f32⟩ : BufTy).Contents (Elt F)),
    nullary main_c (constantI S_ 32 0#32) ]

/-- The reflect padding of %5 into %6: the sixteen operations of the padding function over its call's buffers. -/
abbrev P0 : List (HloOp τ sig (Elt F)) :=
  [ TRef.unary (.of main_v5 : TRef sig ⟨S16x1x512x512, .f32⟩) main_call0.v0 (extractStridedSlice S16x1x1x512 ![0, 0, 0, 0] · slices_S16x1x512x512_S16x1x1x512_0_0_0_0),
    TRef.unary (.of main_v5 : TRef sig ⟨S16x1x512x512, .f32⟩) main_call0.v1 (extractStridedSlice S16x1x7x512 ![0, 0, 1, 0] · slices_S16x1x512x512_S16x1x7x512_0_0_1_0),
    TRef.unary main_call0.v1 main_call0.call0.v0 (Host.reverse [2]),
    TRef.binary main_call0.call0.v0 (.of main_v5 : TRef sig ⟨S16x1x512x512, .f32⟩) main_call0.v3 (fun a b => concatenate S16x1x519x512 2 [⟨S16x1x7x512, a⟩, ⟨S16x1x512x512, b⟩] concatenates_S16x1x7x512_S16x1x512x512_S16x1x519x512_d2),
    TRef.unary main_call0.v3 main_call0.v4 (extractStridedSlice S16x1x1x512 ![0, 0, 518, 0] · slices_S16x1x519x512_S16x1x1x512_0_0_518_0),
    TRef.unary main_call0.v3 main_call0.v5 (extractStridedSlice S16x1x7x512 ![0, 0, 511, 0] · slices_S16x1x519x512_S16x1x7x512_0_0_511_0),
    TRef.unary main_call0.v5 main_call0.call1.v0 (Host.reverse [2]),
    TRef.binary main_call0.v3 main_call0.call1.v0 main_call0.v7 (fun a b => concatenate S16x1x526x512 2 [⟨S16x1x519x512, a⟩, ⟨S16x1x7x512, b⟩] concatenates_S16x1x519x512_S16x1x7x512_S16x1x526x512_d2),
    TRef.unary main_call0.v7 main_call0.v8 (extractStridedSlice S16x1x526x1 ![0, 0, 0, 0] · slices_S16x1x526x512_S16x1x526x1_0_0_0_0),
    TRef.unary main_call0.v7 main_call0.v9 (extractStridedSlice S16x1x526x7 ![0, 0, 0, 1] · slices_S16x1x526x512_S16x1x526x7_0_0_0_1),
    TRef.unary main_call0.v9 main_call0.call2.v0 (Host.reverse [3]),
    TRef.binary main_call0.call2.v0 main_call0.v7 main_call0.v11 (fun a b => concatenate S16x1x526x519 3 [⟨S16x1x526x7, a⟩, ⟨S16x1x526x512, b⟩] concatenates_S16x1x526x7_S16x1x526x512_S16x1x526x519_d3),
    TRef.unary main_call0.v11 main_call0.v12 (extractStridedSlice S16x1x526x1 ![0, 0, 0, 518] · slices_S16x1x526x519_S16x1x526x1_0_0_0_518),
    TRef.unary main_call0.v11 main_call0.v13 (extractStridedSlice S16x1x526x7 ![0, 0, 0, 511] · slices_S16x1x526x519_S16x1x526x7_0_0_0_511),
    TRef.unary main_call0.v13 main_call0.call3.v0 (Host.reverse [3]),
    TRef.binary main_call0.v11 main_call0.call3.v0 main_call0.v15 (fun a b => concatenate S16x1x526x526 3 [⟨S16x1x526x519, a⟩, ⟨S16x1x526x7, b⟩] concatenates_S16x1x526x519_S16x1x526x7_S16x1x526x526_d3) ]

/-- The 15 x 15 window minimum of %6 and its clamp into %9: eleven operations. -/
abbrev W0 : List (HloOp τ sig (Elt F)) :=
  [ nullary main_cst_2 (constant S_ .f32 0x7F800000#32),
    unary main_cst_2 main_v7 (broadcastInDim S_ ![] bcast_S_S_ : (⟨S_, .f32⟩ : BufTy).Contents (Elt F) → (⟨S_, .f32⟩ : BufTy).Contents (Elt F)),
    binary main_v6 main_v7 main_v8 ((fun x v => Host.reduceWindow FloatOps.minimumf ![1, 1, 15, 15] ![1, 1, 1, 1] ![0, 0, 0, 0] ![0, 0, 0, 0] x v reduceWindows_S16x1x526x526_S16x1x512x512_w1s1p0_0_w1s1p0_0_w15s1p0_0_w15s1p0_0 h_S_) : (⟨S16x1x526x526, .f32⟩ : BufTy).Contents (Elt F) → (⟨S_, .f32⟩ : BufTy).Contents (Elt F) → (⟨S16x1x512x512, .f32⟩ : BufTy).Contents (Elt F)),
    nullary main_cst_3 (constant S_ .f32 0x00000000#32),
    nullary main_cst_4 (constant S_ .f32 0x3DCCCCCD#32),
    TRef.unary (.of main_cst_3 : TRef sig ⟨S_, .f32⟩) main_call1.v0 id,
    TRef.unary main_call1.v0 main_call1.v1 (broadcastInDim S16x1x512x512 ![] bcast_S_S16x1x512x512),
    TRef.binary main_call1.v1 (.of main_v8 : TRef sig ⟨S16x1x512x512, .f32⟩) main_call1.v2 maximumf,
    TRef.unary (.of main_cst_4 : TRef sig ⟨S_, .f32⟩) main_call1.v3 id,
    TRef.unary main_call1.v3 main_call1.v4 (broadcastInDim S16x1x512x512 ![] bcast_S_S16x1x512x512),
    TRef.binary main_call1.v4 main_call1.v2 main_call1.v5 minimumf ]

/-- The second argument scaled to the unit range and its channel minimum: ten operations, ending in %15 and the unread integer zero. -/
abbrev A1 : List (HloOp τ sig (Elt F)) :=
  [ nullary main_cst_5 (constant S_ .f32 0x3F800000#32),
    unary main_cst_5 main_v10 (broadcastInDim S16x3x512x512 ![] bcast_S_S16x3x512x512 : (⟨S_, .f32⟩ : BufTy).Contents (Elt F) → (⟨S16x3x512x512, .f32⟩ : BufTy).Contents (Elt F)),
    binary main_arg1 main_v10 main_v11 (addf : (⟨S16x3x512x512, .f32⟩ : BufTy).Contents (Elt F) → (⟨S16x3x512x512, .f32⟩ : BufTy).Contents (Elt F) → (⟨S16x3x512x512, .f32⟩ : BufTy).Contents (Elt F)),
    nullary main_cst_6 (constant S_ .f32 0x40000000#32),
    unary main_cst_6 main_v12 (broadcastInDim S16x3x512x512 ![] bcast_S_S16x3x512x512 : (⟨S_, .f32⟩ : BufTy).Contents (Elt F) → (⟨S16x3x512x512, .f32⟩ : BufTy).Contents (Elt F)),
    binary main_v11 main_v12 main_v13 (Host.divf : (⟨S16x3x512x512, .f32⟩ : BufTy).Contents (Elt F) → (⟨S16x3x512x512, .f32⟩ : BufTy).Contents (Elt F) → (⟨S16x3x512x512, .f32⟩ : BufTy).Contents (Elt F)),
    nullary main_cst_7 (constant S_ .f32 0x7F800000#32),
    binary main_v13 main_cst_7 main_v14 ((fun x v => Host.reduce FloatOps.minimumf x v reducesTo_S16x3x512x512_S16x512x512_d1 h_S_) : (⟨S16x3x512x512, .f32⟩ : BufTy).Contents (Elt F) → (⟨S_, .f32⟩ : BufTy).Contents (Elt F) → (⟨S16x512x512, .f32⟩ : BufTy).Contents (Elt F)),
    unary main_v14 main_v15 (broadcastInDim S16x1x512x512 ![0, 2, 3] bcast_S16x512x512_S16x1x512x512_0_2_3 : (⟨S16x512x512, .f32⟩ : BufTy).Contents (Elt F) → (⟨S16x1x512x512, .f32⟩ : BufTy).Contents (Elt F)),
    nullary main_c_8 (constantI S_ 32 0#32) ]

/-- The reflect padding of %15 into %16: the sixteen operations of the padding function over its call's buffers. -/
abbrev P1 : List (HloOp τ sig (Elt F)) :=
  [ TRef.unary (.of main_v15 : TRef sig ⟨S16x1x512x512, .f32⟩) main_call2.v0 (extractStridedSlice S16x1x1x512 ![0, 0, 0, 0] · slices_S16x1x512x512_S16x1x1x512_0_0_0_0),
    TRef.unary (.of main_v15 : TRef sig ⟨S16x1x512x512, .f32⟩) main_call2.v1 (extractStridedSlice S16x1x7x512 ![0, 0, 1, 0] · slices_S16x1x512x512_S16x1x7x512_0_0_1_0),
    TRef.unary main_call2.v1 main_call2.call0.v0 (Host.reverse [2]),
    TRef.binary main_call2.call0.v0 (.of main_v15 : TRef sig ⟨S16x1x512x512, .f32⟩) main_call2.v3 (fun a b => concatenate S16x1x519x512 2 [⟨S16x1x7x512, a⟩, ⟨S16x1x512x512, b⟩] concatenates_S16x1x7x512_S16x1x512x512_S16x1x519x512_d2),
    TRef.unary main_call2.v3 main_call2.v4 (extractStridedSlice S16x1x1x512 ![0, 0, 518, 0] · slices_S16x1x519x512_S16x1x1x512_0_0_518_0),
    TRef.unary main_call2.v3 main_call2.v5 (extractStridedSlice S16x1x7x512 ![0, 0, 511, 0] · slices_S16x1x519x512_S16x1x7x512_0_0_511_0),
    TRef.unary main_call2.v5 main_call2.call1.v0 (Host.reverse [2]),
    TRef.binary main_call2.v3 main_call2.call1.v0 main_call2.v7 (fun a b => concatenate S16x1x526x512 2 [⟨S16x1x519x512, a⟩, ⟨S16x1x7x512, b⟩] concatenates_S16x1x519x512_S16x1x7x512_S16x1x526x512_d2),
    TRef.unary main_call2.v7 main_call2.v8 (extractStridedSlice S16x1x526x1 ![0, 0, 0, 0] · slices_S16x1x526x512_S16x1x526x1_0_0_0_0),
    TRef.unary main_call2.v7 main_call2.v9 (extractStridedSlice S16x1x526x7 ![0, 0, 0, 1] · slices_S16x1x526x512_S16x1x526x7_0_0_0_1),
    TRef.unary main_call2.v9 main_call2.call2.v0 (Host.reverse [3]),
    TRef.binary main_call2.call2.v0 main_call2.v7 main_call2.v11 (fun a b => concatenate S16x1x526x519 3 [⟨S16x1x526x7, a⟩, ⟨S16x1x526x512, b⟩] concatenates_S16x1x526x7_S16x1x526x512_S16x1x526x519_d3),
    TRef.unary main_call2.v11 main_call2.v12 (extractStridedSlice S16x1x526x1 ![0, 0, 0, 518] · slices_S16x1x526x519_S16x1x526x1_0_0_0_518),
    TRef.unary main_call2.v11 main_call2.v13 (extractStridedSlice S16x1x526x7 ![0, 0, 0, 511] · slices_S16x1x526x519_S16x1x526x7_0_0_0_511),
    TRef.unary main_call2.v13 main_call2.call3.v0 (Host.reverse [3]),
    TRef.binary main_call2.v11 main_call2.call3.v0 main_call2.v15 (fun a b => concatenate S16x1x526x526 3 [⟨S16x1x526x519, a⟩, ⟨S16x1x526x7, b⟩] concatenates_S16x1x526x519_S16x1x526x7_S16x1x526x526_d3) ]

/-- The 15 x 15 window minimum of %16 and its clamp into %19: eleven operations. -/
abbrev W1 : List (HloOp τ sig (Elt F)) :=
  [ nullary main_cst_9 (constant S_ .f32 0x7F800000#32),
    unary main_cst_9 main_v17 (broadcastInDim S_ ![] bcast_S_S_ : (⟨S_, .f32⟩ : BufTy).Contents (Elt F) → (⟨S_, .f32⟩ : BufTy).Contents (Elt F)),
    binary main_v16 main_v17 main_v18 ((fun x v => Host.reduceWindow FloatOps.minimumf ![1, 1, 15, 15] ![1, 1, 1, 1] ![0, 0, 0, 0] ![0, 0, 0, 0] x v reduceWindows_S16x1x526x526_S16x1x512x512_w1s1p0_0_w1s1p0_0_w15s1p0_0_w15s1p0_0 h_S_) : (⟨S16x1x526x526, .f32⟩ : BufTy).Contents (Elt F) → (⟨S_, .f32⟩ : BufTy).Contents (Elt F) → (⟨S16x1x512x512, .f32⟩ : BufTy).Contents (Elt F)),
    nullary main_cst_10 (constant S_ .f32 0x00000000#32),
    nullary main_cst_11 (constant S_ .f32 0x3DCCCCCD#32),
    TRef.unary (.of main_cst_10 : TRef sig ⟨S_, .f32⟩) main_call3.v0 id,
    TRef.unary main_call3.v0 main_call3.v1 (broadcastInDim S16x1x512x512 ![] bcast_S_S16x1x512x512),
    TRef.binary main_call3.v1 (.of main_v18 : TRef sig ⟨S16x1x512x512, .f32⟩) main_call3.v2 maximumf,
    TRef.unary (.of main_cst_11 : TRef sig ⟨S_, .f32⟩) main_call3.v3 id,
    TRef.unary main_call3.v3 main_call3.v4 (broadcastInDim S16x1x512x512 ![] bcast_S_S16x1x512x512),
    TRef.binary main_call3.v4 main_call3.v2 main_call3.v5 minimumf ]

/-- The difference of %9 and %19, its square, the sum from zero and the division by the count: six operations. -/
abbrev T : List (HloOp τ sig (Elt F)) :=
  [ binary main_v9 main_v19 main_v20 (subf : (⟨S16x1x512x512, .f32⟩ : BufTy).Contents (Elt F) → (⟨S16x1x512x512, .f32⟩ : BufTy).Contents (Elt F) → (⟨S16x1x512x512, .f32⟩ : BufTy).Contents (Elt F)),
    binary main_v20 main_v20 main_v21 (mulf : (⟨S16x1x512x512, .f32⟩ : BufTy).Contents (Elt F) → (⟨S16x1x512x512, .f32⟩ : BufTy).Contents (Elt F) → (⟨S16x1x512x512, .f32⟩ : BufTy).Contents (Elt F)),
    nullary main_cst_12 (constant S_ .f32 0x00000000#32),
    binary main_v21 main_cst_12 main_v22 ((fun x v => Host.reduceAdd x v reducesTo_S16x1x512x512_S_d0_1_2_3 h_S_) : (⟨S16x1x512x512, .f32⟩ : BufTy).Contents (Elt F) → (⟨S_, .f32⟩ : BufTy).Contents (Elt F) → (⟨S_, .f32⟩ : BufTy).Contents (Elt F)),
    nullary main_cst_13 (constant S_ .f32 0x4A800000#32),
    binary main_v22 main_cst_13 main_v23 (Host.divf : (⟨S_, .f32⟩ : BufTy).Contents (Elt F) → (⟨S_, .f32⟩ : BufTy).Contents (Elt F) → (⟨S_, .f32⟩ : BufTy).Contents (Elt F)) ]

/-- The eighty operations are the seven stretches one after the other. -/
theorem ops_split : (ops : List (HloOp τ sig (Elt F))) = A0 ++ (P0 ++ (W0 ++ (A1 ++ (P1 ++ (W1 ++ T))))) := rfl

/-- The contents after two lines run one after the other: the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## What each stretch computes, from any contents

Every pure operation stays folded: each side applies it to the same operands, and nothing here looks inside one;
what is compared beneath them is the typed references' transport of contents, the identity at these references. -/

attribute [local irreducible] Host.reduce Host.reduceWindow Host.reduceAdd concatenate extractStridedSlice Host.reverse broadcastInDim
  addf subf mulf minimumf maximumf Host.divf constant constantI

set_option maxRecDepth 8192 in
/-- %5 is the channel minimum of the first argument scaled to the unit range. -/
theorem A0_v5 (V : Valuation τ sig (Elt F)) :
    after A0 V (main_v5 : DevRef τ sig) = channelMin (unitRange (V (main_arg0 : DevRef τ sig))) := by
  unfold channelMin unitRange
  after_results

set_option maxRecDepth 8192 in
/-- %6 is %5 reflect-padded: the two reversals' buffers hold the reversed slices, the four border slices are not read. -/
theorem P0_v6 (V : Valuation τ sig (Elt F)) :
    after P0 V (main_v6 : DevRef τ sig) = reflectPad (V (main_v5 : DevRef τ sig)) := by
  unfold reflectPad padRight padLeft padBelow padAbove
  simp only [after_cons, after_nil]
  rfl

set_option maxRecDepth 8192 in
/-- %9 is the clamp of the window minimum of %6; the clamp's two conversions are the identity. -/
theorem W0_v9 (V : Valuation τ sig (Elt F)) :
    after W0 V (main_v9 : DevRef τ sig) = clamp (erode (V (main_v6 : DevRef τ sig))) := by
  unfold clamp erode
  simp only [after_cons, after_nil]
  rfl

set_option maxRecDepth 8192 in
/-- %15 is the channel minimum of the second argument scaled to the unit range. -/
theorem A1_v15 (V : Valuation τ sig (Elt F)) :
    after A1 V (main_v15 : DevRef τ sig) = channelMin (unitRange (V (main_arg1 : DevRef τ sig))) := by
  unfold channelMin unitRange
  after_results

set_option maxRecDepth 8192 in
/-- %16 is %15 reflect-padded. -/
theorem P1_v16 (V : Valuation τ sig (Elt F)) :
    after P1 V (main_v16 : DevRef τ sig) = reflectPad (V (main_v15 : DevRef τ sig)) := by
  unfold reflectPad padRight padLeft padBelow padAbove
  simp only [after_cons, after_nil]
  rfl

set_option maxRecDepth 8192 in
/-- %19 is the clamp of the window minimum of %16. -/
theorem W1_v19 (V : Valuation τ sig (Elt F)) :
    after W1 V (main_v19 : DevRef τ sig) = clamp (erode (V (main_v16 : DevRef τ sig))) := by
  unfold clamp erode
  simp only [after_cons, after_nil]
  rfl

set_option maxRecDepth 8192 in
/-- %23 is the sum of the squared difference of %9 and %19, from zero, divided by the count. -/
theorem T_v23 (V : Valuation τ sig (Elt F)) :
    after T V (main_v23 : DevRef τ sig)
      = Host.divf
          (Host.reduceAdd
            (mulf (subf (V (main_v9 : DevRef τ sig) : FVec F S16x1x512x512 .f32) (V (main_v19 : DevRef τ sig) : FVec F S16x1x512x512 .f32))
                  (subf (V (main_v9 : DevRef τ sig) : FVec F S16x1x512x512 .f32) (V (main_v19 : DevRef τ sig) : FVec F S16x1x512x512 .f32)))
            (constant S_ .f32 0x00000000#32) reducesTo_S16x1x512x512_S_d0_1_2_3 h_S_)
          (constant S_ .f32 0x4A800000#32) := by
  simp only [after_cons, after_nil]
  rfl

/-! ## What each stretch leaves alone

The second argument is not written before its own stretch, and %9 is not written after the first argument's. -/

/-- The first argument's scaling and channel minimum do not write the second argument. -/
theorem A0_arg1 (V : Valuation τ sig (Elt F)) : after A0 V (main_arg1 : DevRef τ sig) = V (main_arg1 : DevRef τ sig) := by
  simp only [after_cons, after_nil]
  rfl
/-- The first padding does not write the second argument. -/
theorem P0_arg1 (V : Valuation τ sig (Elt F)) : after P0 V (main_arg1 : DevRef τ sig) = V (main_arg1 : DevRef τ sig) := by
  simp only [after_cons, after_nil]
  rfl
/-- The first window minimum and clamp do not write the second argument. -/
theorem W0_arg1 (V : Valuation τ sig (Elt F)) : after W0 V (main_arg1 : DevRef τ sig) = V (main_arg1 : DevRef τ sig) := by
  simp only [after_cons, after_nil]
  rfl
/-- The second argument's scaling and channel minimum do not write %9. -/
theorem A1_v9 (V : Valuation τ sig (Elt F)) : after A1 V (main_v9 : DevRef τ sig) = V (main_v9 : DevRef τ sig) := by
  simp only [after_cons, after_nil]
  rfl
/-- The second padding does not write %9. -/
theorem P1_v9 (V : Valuation τ sig (Elt F)) : after P1 V (main_v9 : DevRef τ sig) = V (main_v9 : DevRef τ sig) := by
  simp only [after_cons, after_nil]
  rfl
/-- The second window minimum and clamp do not write %9. -/
theorem W1_v9 (V : Valuation τ sig (Elt F)) : after W1 V (main_v9 : DevRef τ sig) = V (main_v9 : DevRef τ sig) := by
  simp only [after_cons, after_nil]
  rfl

/-- The result buffer %23 after the eighty operations holds `refLoss` of the two arguments' contents: stretch by
    stretch, each value is the named stage of the one before it. -/
theorem out_eq (V : Valuation τ sig (Elt F)) :
    after ops V (main_v23 : DevRef τ sig) = refLoss (V (main_arg0 : DevRef τ sig)) (V (main_arg1 : DevRef τ sig)) := by
  rw [ops_split]
  simp only [after_append]
  rw [T_v23, W1_v19, P1_v16, A1_v15, W0_arg1, P0_arg1, A0_arg1, W1_v9, P1_v9, A1_v9, W0_v9, P0_v6, A0_v5]
  rfl

set_option maxRecDepth 16384 in
/-- No operation writes the first argument. -/
theorem arg0_eq (V : Valuation τ sig (Elt F)) : after ops V (main_arg0 : DevRef τ sig) = V (main_arg0 : DevRef τ sig) := by
  simp only [after_cons, after_nil]
  rfl

set_option maxRecDepth 16384 in
/-- No operation writes the second argument. -/
theorem arg1_eq (V : Valuation τ sig (Elt F)) : after ops V (main_arg1 : DevRef τ sig) = V (main_arg1 : DevRef τ sig) := by
  simp only [after_cons, after_nil]
  rfl

/-- On the one device, for any float values, from any memory with zero counters: every weakly fair execution of
    @main terminates with %23's buffer holding `refLoss` of the two arguments' launch contents, and the two
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23) = refLoss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v23).trans (out_eq _), (h c main_arg0).trans (arg0_eq _), (h c main_arg1).trans (arg1_eq _)⟩)
    (run_seq scopedRefs_eq scopedSems_eq defs main (fun _ => ops) main_eq (fun _ => ops_sub) m ρ)

end Cert.ReferenceIdeal.RefValue

end
-- ==== Proof.KernelTerm.lean ====
/-
  The kernel body's stored value as ONE term of the two image blocks it loads, cut into named stages.

  For one image block v : [1, 3, 512, 512] the body computes, stage by stage,
    unitRange v  = (v + 1) · ½ entrywise, the leading unit axis dropped,
    channelMin y = the minimum of the three channel planes,
    padCols z    = z with seven mirrored columns on each side: the single columns 7, 6, …, 1, then z, then the
                   single columns 510, 509, …, 504, side by side,
    padRows z    = the same along the rows,
    minCols w    = the minimum of the fifteen bands of 512 columns starting at columns 0 … 14,
    minRows r    = the minimum of the fifteen bands of 512 rows starting at rows 0 … 14,
    clamp v      = min 0.1 (max 0 v),
  and stores the sum over the rows of the sums over the lanes of (dark x0 - dark x1)², as a [1, 1, 1] block.
  Each definition is the body's own spelling of that stage, so the store's payload is this term by unfolding.
-/
import proofs.«124275_j16363825398434_2_alg».proof.Proof.Gen.KernelIdeal.Frame

set_option maxRecDepth 16384

noncomputable section

namespace Cert.KernelIdeal.KBody

open Idealize.ShloMosaic Cert.KernelIdeal

variable {F : FTy → Type} [FloatOps F] [Facts]
open Facts₀ Facts

/-- (v + 1) · ½, entry by entry, the leading unit axis dropped. -/
def unitRange (v : Vec F S1x3x512x512 .f32) : FVec F S3x512x512 .f32 :=
  mulf (addf (shapeCast S3x512x512 v shapeCasts_S1x3x512x512_S3x512x512) (broadcast S3x512x512 (Scalar.ofBits .f32 0x3F800000#32)))
    (broadcast S3x512x512 (Scalar.ofBits .f32 0x3F000000#32))

/-- The minimum of the three channel planes. -/
def channelMin (y : FVec F S3x512x512 .f32) : FVec F S512x512 .f32 :=
  minimumf
    (minimumf
      (shapeCast S512x512 (extractStridedSlice S1x512x512 ![0, 0, 0] y slices_S3x512x512_o0_0_0_S1x512x512) shapeCasts_S1x512x512_S512x512)
      (shapeCast S512x512 (extractStridedSlice S1x512x512 ![1, 0, 0] y slices_S3x512x512_o1_0_0_S1x512x512) shapeCasts_S1x512x512_S512x512))
    (shapeCast S512x512 (extractStridedSlice S1x512x512 ![2, 0, 0] y slices_S3x512x512_o2_0_0_S1x512x512) shapeCasts_S1x512x512_S512x512)

/-- Seven mirrored columns on each side. -/
def padCols (z : FVec F S512x512 .f32) : FVec F S512x526 .f32 :=
  concatenate S512x526 1
    [⟨S512x1, extractStridedSlice S512x1 ![0, 7] z slices_S512x512_o0_7_S512x1⟩,
     ⟨S512x1, extractStridedSlice S512x1 ![0, 6] z slices_S512x512_o0_6_S512x1⟩,
     ⟨S512x1, extractStridedSlice S512x1 ![0, 5] z slices_S512x512_o0_5_S512x1⟩,
     ⟨S512x1, extractStridedSlice S512x1 ![0, 4] z slices_S512x512_o0_4_S512x1⟩,
     ⟨S512x1, extractStridedSlice S512x1 ![0, 3] z slices_S512x512_o0_3_S512x1⟩,
     ⟨S512x1, extractStridedSlice S512x1 ![0, 2] z slices_S512x512_o0_2_S512x1⟩,
     ⟨S512x1, extractStridedSlice S512x1 ![0, 1] z slices_S512x512_o0_1_S512x1⟩,
     ⟨S512x512, z⟩,
     ⟨S512x1, extractStridedSlice S512x1 ![0, 510] z slices_S512x512_o0_510_S512x1⟩,
     ⟨S512x1, extractStridedSlice S512x1 ![0, 509] z slices_S512x512_o0_509_S512x1⟩,
     ⟨S512x1, extractStridedSlice S512x1 ![0, 508] z slices_S512x512_o0_508_S512x1⟩,
     ⟨S512x1, extractStridedSlice S512x1 ![0, 507] z slices_S512x512_o0_507_S512x1⟩,
     ⟨S512x1, extractStridedSlice S512x1 ![0, 506] z slices_S512x512_o0_506_S512x1⟩,
     ⟨S512x1, extractStridedSlice S512x1 ![0, 505] z slices_S512x512_o0_505_S512x1⟩,
     ⟨S512x1, extractStridedSlice S512x1 ![0, 504] z slices_S512x512_o0_504_S512x1⟩]
    concatenates_S512x1_S512x1_S512x1_S512x1_S512x1_S512x1_S512x1_S512x512_S512x1_S512x1_S512x1_S512x1_S512x1_S512x1_S512x1_S512x526_d1

/-- Seven mirrored rows above and below. -/
def padRows (z : FVec F S512x526 .f32) : FVec F S526x526 .f32 :=
  concatenate S526x526 0
    [⟨S1x526, extractStridedSlice S1x526 ![7, 0] z slices_S512x526_o7_0_S1x526⟩,
     ⟨S1x526, extractStridedSlice S1x526 ![6, 0] z slices_S512x526_o6_0_S1x526⟩,
     ⟨S1x526, extractStridedSlice S1x526 ![5, 0] z slices_S512x526_o5_0_S1x526⟩,
     ⟨S1x526, extractStridedSlice S1x526 ![4, 0] z slices_S512x526_o4_0_S1x526⟩,
     ⟨S1x526, extractStridedSlice S1x526 ![3, 0] z slices_S512x526_o3_0_S1x526⟩,
     ⟨S1x526, extractStridedSlice S1x526 ![2, 0] z slices_S512x526_o2_0_S1x526⟩,
     ⟨S1x526, extractStridedSlice S1x526 ![1, 0] z slices_S512x526_o1_0_S1x526⟩,
     ⟨S512x526, z⟩,
     ⟨S1x526, extractStridedSlice S1x526 ![510, 0] z slices_S512x526_o510_0_S1x526⟩,
     ⟨S1x526, extractStridedSlice S1x526 ![509, 0] z slices_S512x526_o509_0_S1x526⟩,
     ⟨S1x526, extractStridedSlice S1x526 ![508, 0] z slices_S512x526_o508_0_S1x526⟩,
     ⟨S1x526, extractStridedSlice S1x526 ![507, 0] z slices_S512x526_o507_0_S1x526⟩,
     ⟨S1x526, extractStridedSlice S1x526 ![506, 0] z slices_S512x526_o506_0_S1x526⟩,
     ⟨S1x526, extractStridedSlice S1x526 ![505, 0] z slices_S512x526_o505_0_S1x526⟩,
     ⟨S1x526, extractStridedSlice S1x526 ![504, 0] z slices_S512x526_o504_0_S1x526⟩]
    concatenates_S1x526_S1x526_S1x526_S1x526_S1x526_S1x526_S1x526_S512x526_S1x526_S1x526_S1x526_S1x526_S1x526_S1x526_S1x526_S526x526_d0

/-- The minimum of the fifteen column bands. -/
def minCols (w : FVec F S526x526 .f32) : FVec F S526x512 .f32 :=
  minimumf (minimumf (minimumf (minimumf (minimumf (minimumf (minimumf (minimumf (minimumf (minimumf (minimumf (minimumf (minimumf (minimumf (extractStridedSlice S526x512 ![0, 0] w slices_S526x526_o0_0_S526x512) (extractStridedSlice S526x512 ![0, 1] w slices_S526x526_o0_1_S526x512)) (extractStridedSlice S526x512 ![0, 2] w slices_S526x526_o0_2_S526x512)) (extractStridedSlice S526x512 ![0, 3] w slices_S526x526_o0_3_S526x512)) (extractStridedSlice S526x512 ![0, 4] w slices_S526x526_o0_4_S526x512)) (extractStridedSlice S526x512 ![0, 5] w slices_S526x526_o0_5_S526x512)) (extractStridedSlice S526x512 ![0, 6] w slices_S526x526_o0_6_S526x512)) (extractStridedSlice S526x512 ![0, 7] w slices_S526x526_o0_7_S526x512)) (extractStridedSlice S526x512 ![0, 8] w slices_S526x526_o0_8_S526x512)) (extractStridedSlice S526x512 ![0, 9] w slices_S526x526_o0_9_S526x512)) (extractStridedSlice S526x512 ![0, 10] w slices_S526x526_o0_10_S526x512)) (extractStridedSlice S526x512 ![0, 11] w slices_S526x526_o0_11_S526x512)) (extractStridedSlice S526x512 ![0, 12] w slices_S526x526_o0_12_S526x512)) (extractStridedSlice S526x512 ![0, 13] w slices_S526x526_o0_13_S526x512)) (extractStridedSlice S526x512 ![0, 14] w slices_S526x526_o0_14_S526x512)

/-- The minimum of the fifteen row bands. -/
def minRows (r : FVec F S526x512 .f32) : FVec F S512x512 .f32 :=
  minimumf (minimumf (minimumf (minimumf (minimumf (minimumf (minimumf (minimumf (minimumf (minimumf (minimumf (minimumf (minimumf (minimumf (extractStridedSlice S512x512 ![0, 0] r slices_S526x512_o0_0_S512x512) (extractStridedSlice S512x512 ![1, 0] r slices_S526x512_o1_0_S512x512)) (extractStridedSlice S512x512 ![2, 0] r slices_S526x512_o2_0_S512x512)) (extractStridedSlice S512x512 ![3, 0] r slices_S526x512_o3_0_S512x512)) (extractStridedSlice S512x512 ![4, 0] r slices_S526x512_o4_0_S512x512)) (extractStridedSlice S512x512 ![5, 0] r slices_S526x512_o5_0_S512x512)) (extractStridedSlice S512x512 ![6, 0] r slices_S526x512_o6_0_S512x512)) (extractStridedSlice S512x512 ![7, 0] r slices_S526x512_o7_0_S512x512)) (extractStridedSlice S512x512 ![8, 0] r slices_S526x512_o8_0_S512x512)) (extractStridedSlice S512x512 ![9, 0] r slices_S526x512_o9_0_S512x512)) (extractStridedSlice S512x512 ![10, 0] r slices_S526x512_o10_0_S512x512)) (extractStridedSlice S512x512 ![11, 0] r slices_S526x512_o11_0_S512x512)) (extractStridedSlice S512x512 ![12, 0] r slices_S526x512_o12_0_S512x512)) (extractStridedSlice S512x512 ![13, 0] r slices_S526x512_o13_0_S512x512)) (extractStridedSlice S512x512 ![14, 0] r slices_S526x512_o14_0_S512x512)

/-- min 0.1 (max 0 v), entry by entry. -/
def clamp (v : FVec F S512x512 .f32) : FVec F S512x512 .f32 :=
  minimumf (broadcast S512x512 (Scalar.ofBits .f32 0x3DCCCCCD#32)) (maximumf (broadcast S512x512 (Scalar.ofBits .f32 0x00000000#32)) v)

/-- The reflect-padded channel minimum of an image block. -/
def paddedMin (v : Vec F S1x3x512x512 .f32) : FVec F S526x526 .f32 := padRows (padCols (channelMin (unitRange v)))

/-- The dark channel of an image block. -/
def dark (v : Vec F S1x3x512x512 .f32) : FVec F S512x512 .f32 := clamp (minRows (minCols (paddedMin v)))

/-- The squared difference of two dark channels summed over the lanes, then over the rows, as a [1, 1, 1] block. -/
def squaredSum (d0 d1 : FVec F S512x512 .f32) : FVec F S1x1x1 .f32 :=
  shapeCast S1x1x1
    (shapeCast S1x1
      (multiReduction .add [0] S1
        (shapeCast S512x1
          (multiReduction .add [1] S512 (mulf (subf d0 d1) (subf d0 d1)) 0x00000000#32 reduces_S512x512_S512 (.inl rfl) rfl)
          shapeCasts_S512_S512x1)
        0x00000000#32 reduces_S512x1_S1 (.inl rfl) rfl)
      shapeCasts_S1_S1x1)
    shapeCasts_S1x1_S1x1x1

/-- What the body stores, of the two loaded blocks. -/
def partialSum (x0 x1 : Vec F S1x3x512x512 .f32) : FVec F S1x1x1 .f32 := squaredSum (dark x0) (dark x1)

/-- The store's payload, as the generated skeleton nests it, is `partialSum` of the two loads: both are the same
    chain of operations. -/
theorem payload_eq (x0 x1 : Vec F S1x3x512x512 .f32) :
    Gen.k0_pay1 (Gen.k0_pay13 (Gen.k0_pay9 (Gen.k0_pay2 x1))
        (Gen.k0_pay11 (Gen.k0_pay8 (Gen.k0_pay3 x0) (Gen.k0_pay4 x0) (Gen.k0_pay5 x0) (Gen.k0_pay6 x0) (Gen.k0_pay7 x0))
          (Gen.k0_pay10 (Gen.k0_pay3 x0) (Gen.k0_pay4 x0) (Gen.k0_pay5 x0) (Gen.k0_pay6 x0) (Gen.k0_pay7 x0)))
        (Gen.k0_pay12 (Gen.k0_pay9 (Gen.k0_pay2 x1))))
      = partialSum x0 x1 := rfl

end Cert.KernelIdeal.KBody

end
-- ==== Proof.DarkSpec.lean ====
/-
  The dark-channel loss, entry by entry, over the extended reals.

  For one image X (three channels of 512 x 512 extended reals):
    unit y        = (y + 1) · ½,
    chanMin X r s = the least of the three channels' `unit` values at pixel (r, s),
    padded X a c  = chanMin at the mirror images of a and c, for a, c in [0, 526): position a of a row of 512
                    extended by 7 on both sides by reflection about the border (the border not repeated) is
                    7 - a for a < 7, a - 7 for 7 ≤ a < 519, and 1029 - a (that is 510 - (a - 519)) beyond,
    eroded X p q  = the least padded value over the 15 x 15 window whose corner is (p, q),
    dark X p q    = min 0.1 (max 0 (eroded X p q)),
  and for two images sqDiff X Y p q = (dark X p q - dark Y p q)².
  The constants 1, ½, 0 and 0.1 are kept as the values their 32-bit float patterns denote; only two facts about
  patterns are needed: the pattern of 2.0 denotes 2 and that of 0.5 denotes ½, so that dividing by the first is
  multiplying by the second at EVERY extended real (no finiteness).
-/
import Idealize.ShloMosaic.PureOps.Ideal
import Idealize.ShloMosaic.Lib.ValueIdx
import Mathlib.Tactic

noncomputable section

namespace Cert.DarkSpec

open Idealize.ShloMosaic

/-- The pattern of `2.0` denotes the real 2. -/
theorem ofBits_two : Ideal.ofBits .f32 0x40000000#32 = ((2 : ℝ) : EReal) := by
  simp [Ideal.ofBits, Ideal.ieee, -EReal.coe_mul]; norm_num

/-- The pattern of `0.5` denotes the real ½. -/
theorem ofBits_half : Ideal.ofBits .f32 0x3F000000#32 = ((1 / 2 : ℝ) : EReal) := by
  simp [Ideal.ofBits, Ideal.ieee, -EReal.coe_mul]; norm_num

/-- Dividing by 2 is multiplying by ½, at every extended real. -/
theorem div_two_eq_mul_half (z : EReal) :
    Ideal.div z (Ideal.ofBits .f32 0x40000000#32) = z * Ideal.ofBits .f32 0x3F000000#32 := by
  rw [ofBits_two, ofBits_half, Ideal.div_coe (by norm_num : (2 : ℝ) ≠ 0)]

/-- Position `a` of a row of 512 extended by 7 mirrored entries on both sides. -/
def reflIdx (a : ℕ) : ℕ := if a < 7 then 7 - a else if a < 519 then a - 7 else 1029 - a

theorem reflIdx_lt {a : ℕ} (h : a < 526) : reflIdx a < 512 := by
  unfold reflIdx; split_ifs <;> omega

/-- The mirror image of a padded position. -/
def mirror (a : Fin 526) : Fin 512 := ⟨reflIdx a.val, reflIdx_lt a.isLt⟩

/-- Position `i` of the window whose corner is `p`. -/
def winAt (p : Fin 512) (i : Fin 15) : Fin 526 := ⟨i.val + p.val, by have := p.isLt; have := i.isLt; omega⟩

/-- (y + 1) · ½. -/
def unit (y : EReal) : EReal := (y + Ideal.ofBits .f32 0x3F800000#32) * Ideal.ofBits .f32 0x3F000000#32

/-- The least of the three channels at a pixel. -/
def chanMin (X : Fin 3 → Fin 512 → Fin 512 → EReal) (r s : Fin 512) : EReal :=
  min (min (unit (X 0 r s)) (unit (X 1 r s))) (unit (X 2 r s))

/-- The reflect-padded channel minimum. -/
def padded (X : Fin 3 → Fin 512 → Fin 512 → EReal) (a c : Fin 526) : EReal := chanMin X (mirror a) (mirror c)

/-- The least padded value over a 15 x 15 window. -/
def eroded (X : Fin 3 → Fin 512 → Fin 512 → EReal) (p q : Fin 512) : EReal :=
  ⨅ (i : Fin 15) (j : Fin 15), padded X (winAt p i) (winAt q j)

/-- The dark channel: the eroded minimum clamped into [0, 0.1]. -/
def dark (X : Fin 3 → Fin 512 → Fin 512 → EReal) (p q : Fin 512) : EReal :=
  min (Ideal.ofBits .f32 0x3DCCCCCD#32) (max (Ideal.ofBits .f32 0x00000000#32) (eroded X p q))

/-- The squared difference of two images' dark channels at a pixel. -/
def sqDiff (X Y : Fin 3 → Fin 512 → Fin 512 → EReal) (p q : Fin 512) : EReal :=
  (dark X p q - dark Y p q) * (dark X p q - dark Y p q)

end Cert.DarkSpec

end
-- ==== Proof.LibWindowMin.lean ====
/-
  General lemmas for a minimum taken over a window and for sums over arrays of rank three and four.

  * In a complete linear order, a left fold of `min` over a list, from any start, is the start's minimum with the
    infimum of the family over the list's members; from the top element over all of `Fin N` it is the infimum of the
    family. A nest of binary minima `(… (f 0 ⊓ f 1) ⊓ …) ⊓ f n` is peeled one term at a time from the right.
  * An index of a rank-three or rank-four array is the tuple of its coordinates, so a sum over all indices is the
    iterated sum over the coordinates (any commutative additive monoid: no finiteness is involved).
  * A band of columns cut from a rank-four array (offset on the last axis only) read at coordinates.
-/
import Mathlib.Order.CompleteLattice.Basic
import Mathlib.Order.CompleteLattice.Finset
import Mathlib.Algebra.BigOperators.Fin
import Mathlib.Tactic
import Idealize.ShloMosaic.Lib.ValueIdx
import Idealize.ShloMosaic.Lib.ValueLayout
import Idealize.ShloMosaic.Lib.Pipeline.Value

namespace Cert.LibWindowMin

open Idealize.ShloMosaic Idealize.ShloMosaic.ValueIdx

section Order
variable {α : Type*} [CompleteLinearOrder α]

/-- A left fold of `min` over a list from `a`: the minimum of `a` and the infimum over the list's members. -/
theorem foldl_min_eq {ι : Type*} (g : ι → α) (l : List ι) (a : α) :
    l.foldl (fun r n => min r (g n)) a = min a (⨅ n ∈ l, g n) := by
  induction l generalizing a with
  | nil => simp
  | cons x xs ih =>
    rw [List.foldl_cons, ih]
    simp only [List.mem_cons, iInf_or, iInf_inf_eq, iInf_iInf_eq_left, min_assoc]

/-- From the top element over every position of `Fin N`: the infimum of the family. -/
theorem foldl_min_top_finRange {N : ℕ} (g : Fin N → α) :
    (List.finRange N).foldl (fun r n => min r (g n)) ⊤ = ⨅ n, g n := by
  rw [foldl_min_eq, top_inf_eq]
  simp only [List.mem_finRange, iInf_pos]

/-- The infimum over `Fin (n + 1)` is the infimum over the first `n` positions, min the last. -/
theorem iInf_fin_succ_last {n : ℕ} (f : Fin (n + 1) → α) :
    (⨅ i, f i) = min (⨅ i : Fin n, f i.castSucc) (f (Fin.last n)) := by
  apply le_antisymm
  · exact le_min (le_iInf fun i => iInf_le _ _) (iInf_le _ _)
  · refine le_iInf fun i => ?_
    refine Fin.lastCases ?_ (fun j => ?_) i
    · exact min_le_right _ _
    · exact (min_le_left _ _).trans (iInf_le _ j)

/-- The infimum over the one position of `Fin 1`. -/
theorem iInf_fin_one (f : Fin 1 → α) : (⨅ i, f i) = f 0 := by
  apply le_antisymm (iInf_le _ _)
  exact le_iInf fun i => by rw [Subsingleton.elim i 0]

/-- Fifteen values' minima nested from the left are the infimum of the family. -/
theorem min15_eq_iInf (f : Fin 15 → α) :
    min (min (min (min (min (min (min (min (min (min (min (min (min (min (f 0) (f 1)) (f 2)) (f 3)) (f 4)) (f 5)) (f 6)) (f 7)) (f 8)) (f 9)) (f 10)) (f 11)) (f 12)) (f 13)) (f 14) = ⨅ i, f i := by
  iterate 14 rw [iInf_fin_succ_last]
  rw [iInf_fin_one]
  rfl

end Order

section Sums
variable {M : Type*} [AddCommMonoid M]

/-- An index of a rank-three array is the triple of its coordinates. -/
def idxEquiv3 {n0 n1 n2 : ℕ} : (⟨3, ![n0, n1, n2]⟩ : Shape).Idx ≃ Fin n0 × Fin n1 × Fin n2 where
  toFun j := (j 0, j 1, j 2)
  invFun t := ix3 t.1 t.2.1 t.2.2
  left_inv j := (eq_ix3 j).symm
  right_inv _ := rfl

/-- An index of a rank-four array is the quadruple of its coordinates. -/
def idxEquiv4 {n0 n1 n2 n3 : ℕ} : (⟨4, ![n0, n1, n2, n3]⟩ : Shape).Idx ≃ Fin n0 × Fin n1 × Fin n2 × Fin n3 where
  toFun j := (j 0, j 1, j 2, j 3)
  invFun t := ix4 t.1 t.2.1 t.2.2.1 t.2.2.2
  left_inv j := (eq_ix4 j).symm
  right_inv _ := rfl

/-- A sum over the indices of a rank-three array, coordinate by coordinate. -/
theorem sum_idx3 {n0 n1 n2 : ℕ} (f : (⟨3, ![n0, n1, n2]⟩ : Shape).Idx → M) :
    ∑ j, f j = ∑ a : Fin n0, ∑ b : Fin n1, ∑ c : Fin n2, f (ix3 a b c) := by
  rw [← idxEquiv3.symm.sum_comp f, Fintype.sum_prod_type]
  refine Finset.sum_congr rfl fun a _ => ?_
  rw [Fintype.sum_prod_type]
  rfl

/-- A sum over the indices of a rank-four array, coordinate by coordinate. -/
theorem sum_idx4 {n0 n1 n2 n3 : ℕ} (f : (⟨4, ![n0, n1, n2, n3]⟩ : Shape).Idx → M) :
    ∑ j, f j = ∑ a : Fin n0, ∑ b : Fin n1, ∑ c : Fin n2, ∑ d : Fin n3, f (ix4 a b c d) := by
  rw [← idxEquiv4.symm.sum_comp f, Fintype.sum_prod_type]
  refine Finset.sum_congr rfl fun a _ => ?_
  rw [Fintype.sum_prod_type]
  refine Finset.sum_congr rfl fun b _ => ?_
  rw [Fintype.sum_prod_type]
  rfl

/-- A sum over the one position of `Fin 1`. -/
theorem sum_fin_one (f : Fin 1 → M) : ∑ i, f i = f 0 := by
  simp

end Sums

section Slices
variable {α : Type}

/-- A band of columns of a rank-four array, offset `o` on the last axis, read at `(a, b, c, j)`: the array at
    `(a, b, c, o + j)`. -/
theorem slice4_axis3_apply {n0 n1 n2 n3 m : ℕ} (o : ℕ) (X : (⟨4, ![n0, n1, n2, n3]⟩ : Shape).Idx → α)
    (h : (⟨4, ![n0, n1, n2, n3]⟩ : Shape).Slices ![0, 0, 0, o] ⟨4, ![n0, n1, n2, m]⟩)
    (a : Fin n0) (b : Fin n1) (c : Fin n2) (j : Fin m) (k : Fin n3) (hk : k.val = o + j.val) :
    extractStridedSlice ⟨4, ![n0, n1, n2, m]⟩ ![0, 0, 0, o] X h (ix4 a b c j) = X (ix4 a b c k) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => exact hk)

end Slices

end Cert.LibWindowMin
-- ==== Proof.LibColumnForms.lean ====
/-
  Two layout operations read at an index given by coordinates, for any extents `a`, `b` and any element type: the
  COLUMN forms that a sum kept as a column (`keepdims` along the last axis) goes through.

  • a vector `[a]` viewed as a column `[a, 1]` reads, at `(i, u)`, the vector at `i` (the unit coordinate `u` is `0`, so
    both indices have row-major position `i`);
  • a column `[a, 1]` broadcast along the second axis to `[a, b]` reads, at `(p, c)`, the column at `(p, 0)`: the
    operand's second axis is a unit axis, so its coordinate is `0` whatever `c` is, and its first axis keeps `p`
    (when `a` itself is `1` the only `p` is `0`).

  The row forms (`[a]` as `[1, a]`, `[1, b]` over `[a, b]`) are the library's `shapeCast_a_1a_apply` and
  `broadcastTo_1b_ab_apply`.
-/
import Idealize.ShloMosaic.Lib.ValueLayout

namespace Cert.ColumnForms

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnForms
-- ==== Proof.KernelRead.lean ====
/-
  The kernel body's stages read at an index, over the extended reals, and its stored value as the double sum of the
  squared differences of the two images' dark channels.

  * unitRange and channelMin at a pixel are `unit` and the least of three;
  * padCols at column c reads column `mirror c`: the fifteen pieces are the single columns 7 … 1 (columns 0 … 6 of the
    result), the array itself (columns 7 … 518) and the single columns 510 … 504 (columns 519 … 525); padRows likewise;
  * the minimum of the fifteen column bands at (a, q) is the infimum over j of the operand at (a, j + q), and of the
    fifteen row bands at (p, q) the infimum over i at (i + p, q);
  * a sum over the lanes kept as a column and then summed over the rows is the double sum.
-/
import proofs.«124275_j16363825398434_2_alg».proof.Proof.KernelTerm
import proofs.«124275_j16363825398434_2_alg».proof.Proof.DarkSpec
import proofs.«124275_j16363825398434_2_alg».proof.Proof.LibWindowMin
import proofs.«124275_j16363825398434_2_alg».proof.Proof.LibColumnForms
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.KBody

open Idealize.ShloMosaic Idealize.ShloMosaic.ValueIdx Cert.KernelIdeal Cert.DarkSpec Cert.LibWindowMin

variable [Facts]
open Facts₀ Facts

/-- The image a block holds: channel, row, column. -/
def imageOfBlock (v : Vec Ideal S1x3x512x512 .f32) : Fin 3 → Fin 512 → Fin 512 → EReal :=
  fun ch r s => v (ix4 (0 : Fin 1) ch r s)

theorem unitRange_apply (v : Vec Ideal S1x3x512x512 .f32) (ch : Fin 3) (r s : Fin 512) :
    unitRange v (ix3 ch r s) = DarkSpec.unit (imageOfBlock v ch r s) := by
  unfold unitRange DarkSpec.unit imageOfBlock
  rw [mulf_apply, addf_apply, broadcast_apply, broadcast_apply, shapeCast_1abc_abc_apply]
  rfl

/-- One channel plane, cut out and its unit axis dropped, read at a pixel. -/
theorem plane_apply (o : ℕ) (y : FVec Ideal S3x512x512 .f32) (h : S3x512x512.Slices ![o, 0, 0] S1x512x512)
    (hc : S1x512x512.ShapeCasts S512x512) (ch : Fin 3) (hch : ch.val = o) (r s : Fin 512) :
    shapeCast S512x512 (extractStridedSlice S1x512x512 ![o, 0, 0] y h) hc (ix2 r s) = y (ix3 ch r s) := by
  rw [shapeCast_1ab_ab_apply]
  exact extractStridedSlice_apply _ _ _ _ _ (fun ax => by
    match ax with
    | ⟨0, _⟩ => exact hch.trans (Nat.add_zero _).symm
    | ⟨1, _⟩ => exact (Nat.zero_add _).symm
    | ⟨2, _⟩ => exact (Nat.zero_add _).symm)

theorem channelMin_apply (y : FVec Ideal S3x512x512 .f32) (r s : Fin 512) :
    channelMin y (ix2 r s) = min (min (y (ix3 0 r s)) (y (ix3 1 r s))) (y (ix3 2 r s)) := by
  unfold channelMin
  rw [minimumf_apply, minimumf_apply, plane_apply 0 y _ _ 0 rfl, plane_apply 1 y _ _ 1 rfl, plane_apply 2 y _ _ 2 rfl]

set_option maxHeartbeats 4000000 in
/-- The column-padded array at column `c` is the array at column `mirror c`. -/
theorem padCols_apply (z : FVec Ideal S512x512 .f32) (r : Fin 512) (c : Fin 526) :
    padCols z (ix2 r c) = z (ix2 r (mirror c)) := by
  unfold padCols
  have hc := c.isLt
  rcases (by omega : c.val < 7 ∨ (7 ≤ c.val ∧ c.val < 519) ∨ 519 ≤ c.val) with h | h | h
  · interval_cases hv : c.val
    · refine Eq.trans (concatenate_apply_piece (1 : Fin 2) _ _ (ix2 r c) 0 (by simp) S512x1
        (extractStridedSlice S512x1 ![0, 7] z slices_S512x512_o0_7_S512x1) (by rfl) (by rfl) 0 (by rfl) (ix2 r (0 : Fin 1)) ?_ ?_) ?_
      · intro b hb; match b with
          | ⟨0, _⟩ => rfl
          | ⟨1, _⟩ => exact absurd rfl hb
      · show 0 + 0 = c.val; omega
      · rw [slice2_axis1_eq]; exact congrArg z (congrArg (ix2 r) (Fin.ext (by show 7 + 0 = reflIdx c.val; rw [hv]; rfl)))
    · refine Eq.trans (concatenate_apply_piece (1 : Fin 2) _ _ (ix2 r c) 1 (by simp) S512x1
        (extractStridedSlice S512x1 ![0, 6] z slices_S512x512_o0_6_S512x1) (by rfl) (by rfl) 1 (by rfl) (ix2 r (0 : Fin 1)) ?_ ?_) ?_
      · intro b hb; match b with
          | ⟨0, _⟩ => rfl
          | ⟨1, _⟩ => exact absurd rfl hb
      · show 1 + 0 = c.val; omega
      · rw [slice2_axis1_eq]; exact congrArg z (congrArg (ix2 r) (Fin.ext (by show 6 + 0 = reflIdx c.val; rw [hv]; rfl)))
    · refine Eq.trans (concatenate_apply_piece (1 : Fin 2) _ _ (ix2 r c) 2 (by simp) S512x1
        (extractStridedSlice S512x1 ![0, 5] z slices_S512x512_o0_5_S512x1) (by rfl) (by rfl) 2 (by rfl) (ix2 r (0 : Fin 1)) ?_ ?_) ?_
      · intro b hb; match b with
          | ⟨0, _⟩ => rfl
          | ⟨1, _⟩ => exact absurd rfl hb
      · show 2 + 0 = c.val; omega
      · rw [slice2_axis1_eq]; exact congrArg z (congrArg (ix2 r) (Fin.ext (by show 5 + 0 = reflIdx c.val; rw [hv]; rfl)))
    · refine Eq.trans (concatenate_apply_piece (1 : Fin 2) _ _ (ix2 r c) 3 (by simp) S512x1
        (extractStridedSlice S512x1 ![0, 4] z slices_S512x512_o0_4_S512x1) (by rfl) (by rfl) 3 (by rfl) (ix2 r (0 : Fin 1)) ?_ ?_) ?_
      · intro b hb; match b with
          | ⟨0, _⟩ => rfl
          | ⟨1, _⟩ => exact absurd rfl hb
      · show 3 + 0 = c.val; omega
      · rw [slice2_axis1_eq]; exact congrArg z (congrArg (ix2 r) (Fin.ext (by show 4 + 0 = reflIdx c.val; rw [hv]; rfl)))
    · refine Eq.trans (concatenate_apply_piece (1 : Fin 2) _ _ (ix2 r c) 4 (by simp) S512x1
        (extractStridedSlice S512x1 ![0, 3] z slices_S512x512_o0_3_S512x1) (by rfl) (by rfl) 4 (by rfl) (ix2 r (0 : Fin 1)) ?_ ?_) ?_
      · intro b hb; match b with
          | ⟨0, _⟩ => rfl
          | ⟨1, _⟩ => exact absurd rfl hb
      · show 4 + 0 = c.val; omega
      · rw [slice2_axis1_eq]; exact congrArg z (congrArg (ix2 r) (Fin.ext (by show 3 + 0 = reflIdx c.val; rw [hv]; rfl)))
    · refine Eq.trans (concatenate_apply_piece (1 : Fin 2) _ _ (ix2 r c) 5 (by simp) S512x1
        (extractStridedSlice S512x1 ![0, 2] z slices_S512x512_o0_2_S512x1) (by rfl) (by rfl) 5 (by rfl) (ix2 r (0 : Fin 1)) ?_ ?_) ?_
      · intro b hb; match b with
          | ⟨0, _⟩ => rfl
          | ⟨1, _⟩ => exact absurd rfl hb
      · show 5 + 0 = c.val; omega
      · rw [slice2_axis1_eq]; exact congrArg z (congrArg (ix2 r) (Fin.ext (by show 2 + 0 = reflIdx c.val; rw [hv]; rfl)))
    · refine Eq.trans (concatenate_apply_piece (1 : Fin 2) _ _ (ix2 r c) 6 (by simp) S512x1
        (extractStridedSlice S512x1 ![0, 1] z slices_S512x512_o0_1_S512x1) (by rfl) (by rfl) 6 (by rfl) (ix2 r (0 : Fin 1)) ?_ ?_) ?_
      · intro b hb; match b with
          | ⟨0, _⟩ => rfl
          | ⟨1, _⟩ => exact absurd rfl hb
      · show 6 + 0 = c.val; omega
      · rw [slice2_axis1_eq]; exact congrArg z (congrArg (ix2 r) (Fin.ext (by show 1 + 0 = reflIdx c.val; rw [hv]; rfl)))
  · refine Eq.trans (concatenate_apply_piece (1 : Fin 2) _ _ (ix2 r c) 7 (by simp) S512x512 z (by rfl) (by rfl) 7 (by rfl)
      (ix2 r ⟨c.val - 7, by omega⟩) ?_ ?_) ?_
    · intro b hb; match b with
        | ⟨0, _⟩ => rfl
        | ⟨1, _⟩ => exact absurd rfl hb
    · show 7 + (c.val - 7) = c.val; omega
    · exact congrArg z (congrArg (ix2 r) (Fin.ext (by
        show c.val - 7 = reflIdx c.val
        unfold reflIdx; rw [if_neg (by omega), if_pos (by omega)])))
  · interval_cases hv : c.val
    · refine Eq.trans (concatenate_apply_piece (1 : Fin 2) _ _ (ix2 r c) 8 (by simp) S512x1
        (extractStridedSlice S512x1 ![0, 510] z slices_S512x512_o0_510_S512x1) (by rfl) (by rfl) 519 (by rfl) (ix2 r (0 : Fin 1)) ?_ ?_) ?_
      · intro b hb; match b with
          | ⟨0, _⟩ => rfl
          | ⟨1, _⟩ => exact absurd rfl hb
      · show 519 + 0 = c.val; omega
      · rw [slice2_axis1_eq]; exact congrArg z (congrArg (ix2 r) (Fin.ext (by show 510 + 0 = reflIdx c.val; rw [hv]; rfl)))
    · refine Eq.trans (concatenate_apply_piece (1 : Fin 2) _ _ (ix2 r c) 9 (by simp) S512x1
        (extractStridedSlice S512x1 ![0, 509] z slices_S512x512_o0_509_S512x1) (by rfl) (by rfl) 520 (by rfl) (ix2 r (0 : Fin 1)) ?_ ?_) ?_
      · intro b hb; match b with
          | ⟨0, _⟩ => rfl
          | ⟨1, _⟩ => exact absurd rfl hb
      · show 520 + 0 = c.val; omega
      · rw [slice2_axis1_eq]; exact congrArg z (congrArg (ix2 r) (Fin.ext (by show 509 + 0 = reflIdx c.val; rw [hv]; rfl)))
    · refine Eq.trans (concatenate_apply_piece (1 : Fin 2) _ _ (ix2 r c) 10 (by simp) S512x1
        (extractStridedSlice S512x1 ![0, 508] z slices_S512x512_o0_508_S512x1) (by rfl) (by rfl) 521 (by rfl) (ix2 r (0 : Fin 1)) ?_ ?_) ?_
      · intro b hb; match b with
          | ⟨0, _⟩ => rfl
          | ⟨1, _⟩ => exact absurd rfl hb
      · show 521 + 0 = c.val; omega
      · rw [slice2_axis1_eq]; exact congrArg z (congrArg (ix2 r) (Fin.ext (by show 508 + 0 = reflIdx c.val; rw [hv]; rfl)))
    · refine Eq.trans (concatenate_apply_piece (1 : Fin 2) _ _ (ix2 r c) 11 (by simp) S512x1
        (extractStridedSlice S512x1 ![0, 507] z slices_S512x512_o0_507_S512x1) (by rfl) (by rfl) 522 (by rfl) (ix2 r (0 : Fin 1)) ?_ ?_) ?_
      · intro b hb; match b with
          | ⟨0, _⟩ => rfl
          | ⟨1, _⟩ => exact absurd rfl hb
      · show 522 + 0 = c.val; omega
      · rw [slice2_axis1_eq]; exact congrArg z (congrArg (ix2 r) (Fin.ext (by show 507 + 0 = reflIdx c.val; rw [hv]; rfl)))
    · refine Eq.trans (concatenate_apply_piece (1 : Fin 2) _ _ (ix2 r c) 12 (by simp) S512x1
        (extractStridedSlice S512x1 ![0, 506] z slices_S512x512_o0_506_S512x1) (by rfl) (by rfl) 523 (by rfl) (ix2 r (0 : Fin 1)) ?_ ?_) ?_
      · intro b hb; match b with
          | ⟨0, _⟩ => rfl
          | ⟨1, _⟩ => exact absurd rfl hb
      · show 523 + 0 = c.val; omega
      · rw [slice2_axis1_eq]; exact congrArg z (congrArg (ix2 r) (Fin.ext (by show 506 + 0 = reflIdx c.val; rw [hv]; rfl)))
    · refine Eq.trans (concatenate_apply_piece (1 : Fin 2) _ _ (ix2 r c) 13 (by simp) S512x1
        (extractStridedSlice S512x1 ![0, 505] z slices_S512x512_o0_505_S512x1) (by rfl) (by rfl) 524 (by rfl) (ix2 r (0 : Fin 1)) ?_ ?_) ?_
      · intro b hb; match b with
          | ⟨0, _⟩ => rfl
          | ⟨1, _⟩ => exact absurd rfl hb
      · show 524 + 0 = c.val; omega
      · rw [slice2_axis1_eq]; exact congrArg z (congrArg (ix2 r) (Fin.ext (by show 505 + 0 = reflIdx c.val; rw [hv]; rfl)))
    · refine Eq.trans (concatenate_apply_piece (1 : Fin 2) _ _ (ix2 r c) 14 (by simp) S512x1
        (extractStridedSlice S512x1 ![0, 504] z slices_S512x512_o0_504_S512x1) (by rfl) (by rfl) 525 (by rfl) (ix2 r (0 : Fin 1)) ?_ ?_) ?_
      · intro b hb; match b with
          | ⟨0, _⟩ => rfl
          | ⟨1, _⟩ => exact absurd rfl hb
      · show 525 + 0 = c.val; omega
      · rw [slice2_axis1_eq]; exact congrArg z (congrArg (ix2 r) (Fin.ext (by show 504 + 0 = reflIdx c.val; rw [hv]; rfl)))

set_option maxHeartbeats 4000000 in
/-- The row-padded array at row `a` is the array at row `mirror a`. -/
theorem padRows_apply (z : FVec Ideal S512x526 .f32) (a : Fin 526) (c : Fin 526) :
    padRows z (ix2 a c) = z (ix2 (mirror a) c) := by
  unfold padRows
  have ha := a.isLt
  rcases (by omega : a.val < 7 ∨ (7 ≤ a.val ∧ a.val < 519) ∨ 519 ≤ a.val) with h | h | h
  · interval_cases hv : a.val
    · refine Eq.trans (concatenate_apply_piece (0 : Fin 2) _ _ (ix2 a c) 0 (by simp) S1x526
        (extractStridedSlice S1x526 ![7, 0] z slices_S512x526_o7_0_S1x526) (by rfl) (by rfl) 0 (by rfl) (ix2 (0 : Fin 1) c) ?_ ?_) ?_
      · intro b hb; match b with
          | ⟨0, _⟩ => exact absurd rfl hb
          | ⟨1, _⟩ => rfl
      · show 0 + 0 = a.val; omega
      · rw [slice2_axis0_eq]; exact congrArg z (congrArg (fun k => ix2 k c) (Fin.ext (by show 7 + 0 = reflIdx a.val; rw [hv]; rfl)))
    · refine Eq.trans (concatenate_apply_piece (0 : Fin 2) _ _ (ix2 a c) 1 (by simp) S1x526
        (extractStridedSlice S1x526 ![6, 0] z slices_S512x526_o6_0_S1x526) (by rfl) (by rfl) 1 (by rfl) (ix2 (0 : Fin 1) c) ?_ ?_) ?_
      · intro b hb; match b with
          | ⟨0, _⟩ => exact absurd rfl hb
          | ⟨1, _⟩ => rfl
      · show 1 + 0 = a.val; omega
      · rw [slice2_axis0_eq]; exact congrArg z (congrArg (fun k => ix2 k c) (Fin.ext (by show 6 + 0 = reflIdx a.val; rw [hv]; rfl)))
    · refine Eq.trans (concatenate_apply_piece (0 : Fin 2) _ _ (ix2 a c) 2 (by simp) S1x526
        (extractStridedSlice S1x526 ![5, 0] z slices_S512x526_o5_0_S1x526) (by rfl) (by rfl) 2 (by rfl) (ix2 (0 : Fin 1) c) ?_ ?_) ?_
      · intro b hb; match b with
          | ⟨0, _⟩ => exact absurd rfl hb
          | ⟨1, _⟩ => rfl
      · show 2 + 0 = a.val; omega
      · rw [slice2_axis0_eq]; exact congrArg z (congrArg (fun k => ix2 k c) (Fin.ext (by show 5 + 0 = reflIdx a.val; rw [hv]; rfl)))
    · refine Eq.trans (concatenate_apply_piece (0 : Fin 2) _ _ (ix2 a c) 3 (by simp) S1x526
        (extractStridedSlice S1x526 ![4, 0] z slices_S512x526_o4_0_S1x526) (by rfl) (by rfl) 3 (by rfl) (ix2 (0 : Fin 1) c) ?_ ?_) ?_
      · intro b hb; match b with
          | ⟨0, _⟩ => exact absurd rfl hb
          | ⟨1, _⟩ => rfl
      · show 3 + 0 = a.val; omega
      · rw [slice2_axis0_eq]; exact congrArg z (congrArg (fun k => ix2 k c) (Fin.ext (by show 4 + 0 = reflIdx a.val; rw [hv]; rfl)))
    · refine Eq.trans (concatenate_apply_piece (0 : Fin 2) _ _ (ix2 a c) 4 (by simp) S1x526
        (extractStridedSlice S1x526 ![3, 0] z slices_S512x526_o3_0_S1x526) (by rfl) (by rfl) 4 (by rfl) (ix2 (0 : Fin 1) c) ?_ ?_) ?_
      · intro b hb; match b with
          | ⟨0, _⟩ => exact absurd rfl hb
          | ⟨1, _⟩ => rfl
      · show 4 + 0 = a.val; omega
      · rw [slice2_axis0_eq]; exact congrArg z (congrArg (fun k => ix2 k c) (Fin.ext (by show 3 + 0 = reflIdx a.val; rw [hv]; rfl)))
    · refine Eq.trans (concatenate_apply_piece (0 : Fin 2) _ _ (ix2 a c) 5 (by simp) S1x526
        (extractStridedSlice S1x526 ![2, 0] z slices_S512x526_o2_0_S1x526) (by rfl) (by rfl) 5 (by rfl) (ix2 (0 : Fin 1) c) ?_ ?_) ?_
      · intro b hb; match b with
          | ⟨0, _⟩ => exact absurd rfl hb
          | ⟨1, _⟩ => rfl
      · show 5 + 0 = a.val; omega
      · rw [slice2_axis0_eq]; exact congrArg z (congrArg (fun k => ix2 k c) (Fin.ext (by show 2 + 0 = reflIdx a.val; rw [hv]; rfl)))
    · refine Eq.trans (concatenate_apply_piece (0 : Fin 2) _ _ (ix2 a c) 6 (by simp) S1x526
        (extractStridedSlice S1x526 ![1, 0] z slices_S512x526_o1_0_S1x526) (by rfl) (by rfl) 6 (by rfl) (ix2 (0 : Fin 1) c) ?_ ?_) ?_
      · intro b hb; match b with
          | ⟨0, _⟩ => exact absurd rfl hb
          | ⟨1, _⟩ => rfl
      · show 6 + 0 = a.val; omega
      · rw [slice2_axis0_eq]; exact congrArg z (congrArg (fun k => ix2 k c) (Fin.ext (by show 1 + 0 = reflIdx a.val; rw [hv]; rfl)))
  · refine Eq.trans (concatenate_apply_piece (0 : Fin 2) _ _ (ix2 a c) 7 (by simp) S512x526 z (by rfl) (by rfl) 7 (by rfl)
      (ix2 ⟨a.val - 7, by omega⟩ c) ?_ ?_) ?_
    · intro b hb; match b with
        | ⟨0, _⟩ => exact absurd rfl hb
        | ⟨1, _⟩ => rfl
    · show 7 + (a.val - 7) = a.val; omega
    · exact congrArg z (congrArg (fun k => ix2 k c) (Fin.ext (by
        show a.val - 7 = reflIdx a.val
        unfold reflIdx; rw [if_neg (by omega), if_pos (by omega)])))
  · interval_cases hv : a.val
    · refine Eq.trans (concatenate_apply_piece (0 : Fin 2) _ _ (ix2 a c) 8 (by simp) S1x526
        (extractStridedSlice S1x526 ![510, 0] z slices_S512x526_o510_0_S1x526) (by rfl) (by rfl) 519 (by rfl) (ix2 (0 : Fin 1) c) ?_ ?_) ?_
      · intro b hb; match b with
          | ⟨0, _⟩ => exact absurd rfl hb
          | ⟨1, _⟩ => rfl
      · show 519 + 0 = a.val; omega
      · rw [slice2_axis0_eq]; exact congrArg z (congrArg (fun k => ix2 k c) (Fin.ext (by show 510 + 0 = reflIdx a.val; rw [hv]; rfl)))
    · refine Eq.trans (concatenate_apply_piece (0 : Fin 2) _ _ (ix2 a c) 9 (by simp) S1x526
        (extractStridedSlice S1x526 ![509, 0] z slices_S512x526_o509_0_S1x526) (by rfl) (by rfl) 520 (by rfl) (ix2 (0 : Fin 1) c) ?_ ?_) ?_
      · intro b hb; match b with
          | ⟨0, _⟩ => exact absurd rfl hb
          | ⟨1, _⟩ => rfl
      · show 520 + 0 = a.val; omega
      · rw [slice2_axis0_eq]; exact congrArg z (congrArg (fun k => ix2 k c) (Fin.ext (by show 509 + 0 = reflIdx a.val; rw [hv]; rfl)))
    · refine Eq.trans (concatenate_apply_piece (0 : Fin 2) _ _ (ix2 a c) 10 (by simp) S1x526
        (extractStridedSlice S1x526 ![508, 0] z slices_S512x526_o508_0_S1x526) (by rfl) (by rfl) 521 (by rfl) (ix2 (0 : Fin 1) c) ?_ ?_) ?_
      · intro b hb; match b with
          | ⟨0, _⟩ => exact absurd rfl hb
          | ⟨1, _⟩ => rfl
      · show 521 + 0 = a.val; omega
      · rw [slice2_axis0_eq]; exact congrArg z (congrArg (fun k => ix2 k c) (Fin.ext (by show 508 + 0 = reflIdx a.val; rw [hv]; rfl)))
    · refine Eq.trans (concatenate_apply_piece (0 : Fin 2) _ _ (ix2 a c) 11 (by simp) S1x526
        (extractStridedSlice S1x526 ![507, 0] z slices_S512x526_o507_0_S1x526) (by rfl) (by rfl) 522 (by rfl) (ix2 (0 : Fin 1) c) ?_ ?_) ?_
      · intro b hb; match b with
          | ⟨0, _⟩ => exact absurd rfl hb
          | ⟨1, _⟩ => rfl
      · show 522 + 0 = a.val; omega
      · rw [slice2_axis0_eq]; exact congrArg z (congrArg (fun k => ix2 k c) (Fin.ext (by show 507 + 0 = reflIdx a.val; rw [hv]; rfl)))
    · refine Eq.trans (concatenate_apply_piece (0 : Fin 2) _ _ (ix2 a c) 12 (by simp) S1x526
        (extractStridedSlice S1x526 ![506, 0] z slices_S512x526_o506_0_S1x526) (by rfl) (by rfl) 523 (by rfl) (ix2 (0 : Fin 1) c) ?_ ?_) ?_
      · intro b hb; match b with
          | ⟨0, _⟩ => exact absurd rfl hb
          | ⟨1, _⟩ => rfl
      · show 523 + 0 = a.val; omega
      · rw [slice2_axis0_eq]; exact congrArg z (congrArg (fun k => ix2 k c) (Fin.ext (by show 506 + 0 = reflIdx a.val; rw [hv]; rfl)))
    · refine Eq.trans (concatenate_apply_piece (0 : Fin 2) _ _ (ix2 a c) 13 (by simp) S1x526
        (extractStridedSlice S1x526 ![505, 0] z slices_S512x526_o505_0_S1x526) (by rfl) (by rfl) 524 (by rfl) (ix2 (0 : Fin 1) c) ?_ ?_) ?_
      · intro b hb; match b with
          | ⟨0, _⟩ => exact absurd rfl hb
          | ⟨1, _⟩ => rfl
      · show 524 + 0 = a.val; omega
      · rw [slice2_axis0_eq]; exact congrArg z (congrArg (fun k => ix2 k c) (Fin.ext (by show 505 + 0 = reflIdx a.val; rw [hv]; rfl)))
    · refine Eq.trans (concatenate_apply_piece (0 : Fin 2) _ _ (ix2 a c) 14 (by simp) S1x526
        (extractStridedSlice S1x526 ![504, 0] z slices_S512x526_o504_0_S1x526) (by rfl) (by rfl) 525 (by rfl) (ix2 (0 : Fin 1) c) ?_ ?_) ?_
      · intro b hb; match b with
          | ⟨0, _⟩ => exact absurd rfl hb
          | ⟨1, _⟩ => rfl
      · show 525 + 0 = a.val; omega
      · rw [slice2_axis0_eq]; exact congrArg z (congrArg (fun k => ix2 k c) (Fin.ext (by show 504 + 0 = reflIdx a.val; rw [hv]; rfl)))

/-- The minimum of the fifteen column bands at `(a, q)`: the infimum over the fifteen columns from `q` on. -/
theorem minCols_apply (w : FVec Ideal S526x526 .f32) (a : Fin 526) (q : Fin 512) :
    minCols w (ix2 a q) = ⨅ j : Fin 15, w (ix2 a (winAt q j)) := by
  refine Eq.trans ?_ (min15_eq_iInf fun j : Fin 15 => w (ix2 a (winAt q j)))
  unfold minCols
  simp only [minimumf_apply, slice2_axis1_eq]
  rfl

/-- The minimum of the fifteen row bands at `(p, q)`: the infimum over the fifteen rows from `p` on. -/
theorem minRows_apply (r : FVec Ideal S526x512 .f32) (p q : Fin 512) :
    minRows r (ix2 p q) = ⨅ i : Fin 15, r (ix2 (winAt p i) q) := by
  refine Eq.trans ?_ (min15_eq_iInf fun i : Fin 15 => r (ix2 (winAt p i) q))
  unfold minRows
  simp only [minimumf_apply, slice2_axis0_eq]
  rfl

theorem paddedMin_apply (v : Vec Ideal S1x3x512x512 .f32) (a c : Fin 526) :
    paddedMin v (ix2 a c) = padded (imageOfBlock v) a c := by
  unfold paddedMin padded chanMin
  rw [padRows_apply, padCols_apply, channelMin_apply, unitRange_apply, unitRange_apply, unitRange_apply]

/-- The body's dark channel at a pixel is the specification's, of the image the block holds. -/
theorem dark_apply (v : Vec Ideal S1x3x512x512 .f32) (p q : Fin 512) :
    dark v (ix2 p q) = DarkSpec.dark (imageOfBlock v) p q := by
  unfold dark DarkSpec.dark eroded clamp
  rw [minimumf_apply, maximumf_apply, broadcast_apply, broadcast_apply, minRows_apply]
  simp only [minCols_apply, paddedMin_apply]
  rfl

/-- The lane sums kept as a column, summed over the rows: the double sum of the squared differences. -/
theorem squaredSum_apply (d0 d1 : FVec Ideal S512x512 .f32) :
    squaredSum d0 d1 (ix3 (0 : Fin 1) (0 : Fin 1) (0 : Fin 1))
      = ∑ p : Fin 512, ∑ q : Fin 512, (d0 (ix2 p q) - d1 (ix2 p q)) * (d0 (ix2 p q) - d1 (ix2 p q)) := by
  unfold squaredSum
  rw [shapeCast_ab_1ab_apply, shapeCast_a_1a_apply]
  refine (Ideal.multiReduction_add_single _ 0x00000000#32 reduces_S512x1_S1 (.inl rfl) rfl (ix1 (0 : Fin 1))).trans ?_
  refine Finset.sum_congr rfl fun p _ => ?_
  have e : reduces_S512x1_S1.lift (ix1 (0 : Fin 1)) p = ix2 p (0 : Fin 1) :=
    funext fun c => match c with
      | ⟨0, _⟩ => Fin.ext rfl
      | ⟨1, _⟩ => Fin.ext rfl
  rw [e]
  refine (Cert.ColumnForms.shapeCast_a_a1_apply (a := 512) _ _ p (0 : Fin 1)).trans ?_
  refine (Ideal.multiReduction_add_single _ 0x00000000#32 reduces_S512x512_S512 (.inl rfl) rfl (ix1 p)).trans ?_
  refine Finset.sum_congr rfl fun q _ => ?_
  have e2 : reduces_S512x512_S512.lift (ix1 p) q = ix2 p q :=
    funext fun c => match c with
      | ⟨0, _⟩ => Fin.ext rfl
      | ⟨1, _⟩ => Fin.ext rfl
  rw [e2]
  rfl

/-- What the body stores: the sum over the pixels of the squared difference of the two images' dark channels. -/
theorem partialSum_apply (x0 x1 : Vec Ideal S1x3x512x512 .f32) :
    partialSum x0 x1 (ix3 (0 : Fin 1) (0 : Fin 1) (0 : Fin 1))
      = ∑ p : Fin 512, ∑ q : Fin 512, sqDiff (imageOfBlock x0) (imageOfBlock x1) p q := by
  unfold partialSum sqDiff
  rw [squaredSum_apply]
  simp only [dark_apply]

end Cert.KernelIdeal.KBody

end
-- ==== Proof.LibWindowReduce.lean ====
/-
  Two host operations read at an index, for any element type that is a complete linear order.

  * `stablehlo.reduce_window` whose body is the minimum and whose initial value is the top element: the result at
    `j` is the infimum, over the positions `w` of the window, of the operand at `j · stride + w - lo` where that lies
    inside the operand, and of the top element where it is padding. (The definition folds the window's positions
    in row-major order from the initial value; a minimum does not depend on the order.)
  * `stablehlo.reverse` along the third or the fourth axis of a rank-four array: the coordinate on that axis is
    counted from the other end.
-/
import Idealize.ShloMosaic.PureOps
import Idealize.ShloMosaic.Lib.ValueIdx
import proofs.«124275_j16363825398434_2_alg».proof.Proof.LibWindowMin

namespace Cert.LibWindowReduce

open Idealize.ShloMosaic Idealize.ShloMosaic.ValueIdx Cert.LibWindowMin

/-- A window reduction by `min` from `⊤`, at a result index: the infimum over the window's positions. -/
theorem reduceWindow_min_eq_iInf {α : Type} [CompleteLinearOrder α] {s t u : Shape} (f : α → α → α)
    (hf : ∀ a b, f a b = min a b) (window strides lo hi : Fin s.rank → ℕ) (x : s.Idx → α) (init : u.Idx → α)
    (h : s.ReduceWindows window strides lo hi t) (hu : 0 < u.numel) (htop : init (Shape.Idx.first hu) = ⊤) (j : t.Idx) :
    Host.reduceWindow f window strides lo hi x init h hu j
      = ⨅ w : (⟨s.rank, window⟩ : Shape).Idx,
          (if hin : ∀ a, lo a ≤ (j (a.cast h.1.symm)).val * strides a + (w a).val
                ∧ (j (a.cast h.1.symm)).val * strides a + (w a).val - lo a < s.size a
            then x (fun a => ⟨(j (a.cast h.1.symm)).val * strides a + (w a).val - lo a, (hin a).2⟩) else ⊤) := by
  unfold Host.reduceWindow
  simp only [hf, htop]
  rw [foldl_min_top_finRange]
  exact (Shape.rowMajor (⟨s.rank, window⟩ : Shape)).symm.iInf_comp
    (g := fun w : (⟨s.rank, window⟩ : Shape).Idx =>
      (if hin : ∀ a, lo a ≤ (j (a.cast h.1.symm)).val * strides a + (w a).val
            ∧ (j (a.cast h.1.symm)).val * strides a + (w a).val - lo a < s.size a
        then x (fun a => ⟨(j (a.cast h.1.symm)).val * strides a + (w a).val - lo a, (hin a).2⟩) else ⊤))

variable {α : Type}

/-- A rank-four array reversed along its third axis, read at coordinates. -/
theorem reverse_axis2_apply {n0 n1 n2 n3 : ℕ} (v : (⟨4, ![n0, n1, n2, n3]⟩ : Shape).Idx → α)
    (a : Fin n0) (b : Fin n1) (i : Fin n2) (s : Fin n3) :
    Host.reverse [2] v (ix4 a b i s) = v (ix4 a b i.rev s) := by
  unfold Host.reverse
  exact congrArg v (funext fun c => by
    match c with
    | ⟨0, _⟩ => first | rfl | simp
    | ⟨1, _⟩ => first | rfl | simp
    | ⟨2, _⟩ => first | rfl | simp
    | ⟨3, _⟩ => first | rfl | simp)

/-- A rank-four array reversed along its fourth axis, read at coordinates. -/
theorem reverse_axis3_apply {n0 n1 n2 n3 : ℕ} (v : (⟨4, ![n0, n1, n2, n3]⟩ : Shape).Idx → α)
    (a : Fin n0) (b : Fin n1) (c : Fin n2) (i : Fin n3) :
    Host.reverse [3] v (ix4 a b c i) = v (ix4 a b c i.rev) := by
  unfold Host.reverse
  exact congrArg v (funext fun d => by
    match d with
    | ⟨0, _⟩ => first | rfl | simp
    | ⟨1, _⟩ => first | rfl | simp
    | ⟨2, _⟩ => first | rfl | simp
    | ⟨3, _⟩ => first | rfl | simp)

end Cert.LibWindowReduce
-- ==== Proof.LibBlockMin.lean ====
/-
  Minima over finite families, in any complete linear order (the extended reals, where the distances of this
  certificate live).

  * a fold of `min` from the top element over a finite type is the infimum of the family;
  * an infimum over the first `T * k` positions of a row, block after block of `T` positions: over no block it is the
    top element, one more block adds the minimum with that block's infimum, and over all the blocks of the row it
    is the infimum over the whole row.

  These are what lets a minimum taken tile by tile (a running minimum over key tiles in a loop, a running minimum
  over query tiles across grid points) be read as ONE minimum over the row.
-/
import Mathlib.Order.CompleteLattice.Basic
import Mathlib.Order.CompleteLattice.Finset
import Mathlib.Data.Finset.Fold
import Mathlib.Data.Fintype.Basic
import Mathlib.Order.Lattice
import Mathlib.Tactic

namespace Cert.LibBlockMin

variable {α : Type*} [CompleteLinearOrder α]

/-- The fold of `min` from `⊤` over a finite set is the infimum over the set. -/
theorem fold_min_eq_biInf {ι : Type*} (f : ι → α) (s : Finset ι) :
    s.fold min ⊤ f = ⨅ k ∈ s, f k := by
  classical
  induction s using Finset.induction_on with
  | empty => simp
  | insert a s ha ih =>
    rw [Finset.fold_insert ha, ih, Finset.iInf_insert]

/-- The fold of `min` from `⊤` over a whole finite type is the infimum of the family. -/
theorem fold_min_eq_iInf {ι : Type*} [Fintype ι] (f : ι → α) :
    (Finset.univ : Finset ι).fold min ⊤ f = ⨅ k, f k := by
  rw [fold_min_eq_biInf]; simp

/-- Over no block the infimum is the top element. -/
theorem biInf_block_zero {N : ℕ} (T : ℕ) (f : Fin N → α) :
    (⨅ m : Fin N, ⨅ (_ : m.val < T * 0), f m) = ⊤ := by
  simp

/-- One more block: the infimum over the first `T * (k + 1)` positions is the minimum of the infimum over the
    first `T * k` and the infimum over block `k`. -/
theorem biInf_block_succ {N : ℕ} (T k : ℕ) (h : T * (k + 1) ≤ N) (f : Fin N → α) :
    (⨅ m : Fin N, ⨅ (_ : m.val < T * (k + 1)), f m)
      = min (⨅ m : Fin N, ⨅ (_ : m.val < T * k), f m)
          (⨅ q : Fin T, f ⟨T * k + q.val, by have := q.isLt; rw [Nat.mul_succ] at h; omega⟩) := by
  have hs : T * (k + 1) = T * k + T := Nat.mul_succ T k
  apply le_antisymm
  · refine le_min ?_ ?_
    · refine le_iInf₂ fun m hm => iInf₂_le m (by omega)
    · refine le_iInf fun q => iInf₂_le (⟨T * k + q.val, by have := q.isLt; omega⟩ : Fin N) ?_
      have := q.isLt
      show T * k + q.val < T * (k + 1)
      omega
  · refine le_iInf₂ fun m hm => ?_
    by_cases hlt : m.val < T * k
    · exact (min_le_left _ _).trans (iInf₂_le m hlt)
    · refine (min_le_right _ _).trans ((iInf_le _ (⟨m.val - T * k, by omega⟩ : Fin T)).trans (le_of_eq ?_))
      exact congrArg f (Fin.ext (by show T * k + (m.val - T * k) = m.val; omega))

/-- Over all the blocks of the row: the infimum over the whole row. -/
theorem biInf_block_full {N : ℕ} (B : ℕ) (h : N ≤ B) (f : Fin N → α) :
    (⨅ m : Fin N, ⨅ (_ : m.val < B), f m) = ⨅ m : Fin N, f m :=
  iInf_congr fun m => iInf_pos (lt_of_lt_of_le m.isLt h)

end Cert.LibBlockMin
-- ==== Proof.RefRead.lean ====
/-
  The reference's stages read at an index, over the extended reals, and its result as the sum over batch, rows and
  columns of the squared differences of the two dark channels, divided by the pixel count.

  * unitRange: dividing by 2 is multiplying by ½ at every extended real, so the entry is `unit`;
  * channelMin: a minimum folded from +inf over the three channels is the least of the three;
  * the reflect padding is made of four steps, each setting seven mirrored rows or columns beside the array:
    above (row a of the result is row 7 - a for a < 7, row a - 7 beyond), below (row a for a < 519, row 1036 - a
    beyond), and the same on the left and on the right; composed, row a and column c read `mirror a`, `mirror c`;
  * erode: the window minimum from +inf over a 1 x 1 x 15 x 15 window with no padding is the infimum over the
    fifteen rows from p and the fifteen columns from q;
  * the total sum over a [16, 1, 512, 512] array is the iterated sum over batch, row and column.
-/
import proofs.«124275_j16363825398434_2_alg».proof.Proof.RefTerm
import proofs.«124275_j16363825398434_2_alg».proof.Proof.DarkSpec
import proofs.«124275_j16363825398434_2_alg».proof.Proof.LibWindowMin
import proofs.«124275_j16363825398434_2_alg».proof.Proof.LibWindowReduce
import proofs.«124275_j16363825398434_2_alg».proof.Proof.LibBlockMin
import Idealize.ShloMosaic.PureOps.Ideal.Laws
import Idealize.ShloMosaic.Lib.IdealHost
import Idealize.ShloMosaic.Lib.ValueIdx
import Idealize.ShloMosaic.Lib.ValueLayout
import Idealize.ShloMosaic.Lib.Pipeline.Value

set_option maxRecDepth 16384

noncomputable section

namespace Cert.ReferenceIdeal.RefValue

open Idealize.ShloMosaic Idealize.ShloMosaic.ValueIdx Cert.ReferenceIdeal Cert.DarkSpec Cert.LibWindowMin Cert.LibWindowReduce

variable [Facts]
open Facts₀ Facts

/-- Image `b` of a batch: channel, row, column. -/
def imageOfBatch (x : FVec Ideal S16x3x512x512 .f32) (b : Fin 16) : Fin 3 → Fin 512 → Fin 512 → EReal :=
  fun ch r s => x (ix4 b ch r s)

/-- The pattern of +inf denotes the top element. -/
theorem ofBits_inf : Ideal.ofBits .f32 0x7F800000#32 = ⊤ := by
  simp [Ideal.ofBits, Ideal.ieee]

theorem unitRange_apply (x : FVec Ideal S16x3x512x512 .f32) (b : Fin 16) (ch : Fin 3) (r s : Fin 512) :
    unitRange x (ix4 b ch r s) = DarkSpec.unit (x (ix4 b ch r s)) := by
  unfold unitRange DarkSpec.unit
  show Ideal.div (x (ix4 b ch r s) + Ideal.ofBits .f32 0x3F800000#32) (Ideal.ofBits .f32 0x40000000#32) = _
  rw [div_two_eq_mul_half]

theorem channelMin_apply (y : FVec Ideal S16x3x512x512 .f32) (b : Fin 16) (r s : Fin 512) :
    channelMin y (ix4 b (0 : Fin 1) r s)
      = min (min (y (ix4 b (0 : Fin 3) r s)) (y (ix4 b (1 : Fin 3) r s))) (y (ix4 b (2 : Fin 3) r s)) := by
  unfold channelMin
  rw [broadcastInDim_apply _ _ _ _ (ix3 b r s) (fun a => by
    match a with
    | ⟨0, _⟩ => rfl
    | ⟨1, _⟩ => rfl
    | ⟨2, _⟩ => rfl)]
  haveI : Std.Commutative (FloatOps.minimumf (F := Ideal) (φ := .f32)) := ⟨fun a b => min_comm a b⟩
  haveI : Std.Associative (FloatOps.minimumf (F := Ideal) (φ := .f32)) := ⟨fun a b c => min_assoc a b c⟩
  have hR : S16x3x512x512.Reduces [1] S16x512x512 := by decide
  rw [Host.reduce_eq_fold_single _ _ _ _ hR]
  refine Eq.trans (?_ : _ = (Finset.univ : Finset (Fin 3)).fold min (⊤ : EReal) (fun k : Fin 3 => y (hR.lift (ix3 b r s) k))) ?_
  · rw [← ofBits_inf]; rfl
  rw [Cert.LibBlockMin.fold_min_eq_iInf, iInf_fin_succ_last, iInf_fin_succ_last, iInf_fin_one]
  have e : ∀ k : Fin 3, hR.lift (ix3 b r s) k = ix4 b k r s := fun k => funext fun c =>
    match c with
    | ⟨0, _⟩ => Fin.ext rfl
    | ⟨1, _⟩ => Fin.ext rfl
    | ⟨2, _⟩ => Fin.ext rfl
    | ⟨3, _⟩ => Fin.ext rfl
  simp only [Function.comp, e]
  rfl

/-- Seven mirrored rows above: row `a` reads row `7 - a` of the array for `a < 7`, row `a - 7` beyond. -/
theorem padAbove_apply (z : FVec Ideal S16x1x512x512 .f32) (b : Fin 16) (a : Fin 519) (s : Fin 512) :
    padAbove z (ix4 b (0 : Fin 1) a s)
      = z (ix4 b (0 : Fin 1) ⟨if a.val < 7 then 7 - a.val else a.val - 7, by have := a.isLt; split_ifs <;> omega⟩ s) := by
  unfold padAbove
  by_cases h : a.val < 7
  · rw [concatenate_pair_apply_left (t := S16x1x519x512) (s₁ := S16x1x7x512) (s₂ := S16x1x512x512) (2 : Fin 4) _ _ _ (ix4 b (0 : Fin 1) a s) rfl (ix4 b (0 : Fin 1) (⟨a.val, h⟩ : Fin 7) s)
      (fun c => by
        match c with
        | ⟨0, _⟩ => rfl
        | ⟨1, _⟩ => rfl
        | ⟨2, _⟩ => rfl
        | ⟨3, _⟩ => rfl)]
    rw [reverse_axis2_apply, slice4_axis2_eq]
    exact congrArg z (congrArg (fun k => ix4 b (0 : Fin 1) k s) (Fin.ext (by
      show 1 + (7 - (a.val + 1)) = if a.val < 7 then 7 - a.val else a.val - 7
      rw [if_pos h]; omega)))
  · rw [concatenate_pair_apply_right (t := S16x1x519x512) (s₁ := S16x1x7x512) (s₂ := S16x1x512x512) (2 : Fin 4) _ _ _ (ix4 b (0 : Fin 1) a s) rfl rfl
      (ix4 b (0 : Fin 1) (⟨a.val - 7, by have := a.isLt; omega⟩ : Fin 512) s)
      (fun c hc => by
        match c with
        | ⟨0, _⟩ => rfl
        | ⟨1, _⟩ => rfl
        | ⟨2, _⟩ => exact absurd rfl hc
        | ⟨3, _⟩ => rfl)
      (by show a.val - 7 + 7 = a.val; omega)]
    exact congrArg z (congrArg (fun k => ix4 b (0 : Fin 1) k s) (Fin.ext (by
      show a.val - 7 = if a.val < 7 then 7 - a.val else a.val - 7
      rw [if_neg h])))

/-- Seven mirrored rows below: row `a` reads row `a` for `a < 519`, row `1036 - a` beyond. -/
theorem padBelow_apply (z : FVec Ideal S16x1x519x512 .f32) (b : Fin 16) (a : Fin 526) (s : Fin 512) :
    padBelow z (ix4 b (0 : Fin 1) a s)
      = z (ix4 b (0 : Fin 1) ⟨if a.val < 519 then a.val else 1036 - a.val, by have := a.isLt; split_ifs <;> omega⟩ s) := by
  unfold padBelow
  by_cases h : a.val < 519
  · rw [concatenate_pair_apply_left (t := S16x1x526x512) (s₁ := S16x1x519x512) (s₂ := S16x1x7x512) (2 : Fin 4) _ _ _ (ix4 b (0 : Fin 1) a s) rfl (ix4 b (0 : Fin 1) (⟨a.val, h⟩ : Fin 519) s)
      (fun c => by
        match c with
        | ⟨0, _⟩ => rfl
        | ⟨1, _⟩ => rfl
        | ⟨2, _⟩ => rfl
        | ⟨3, _⟩ => rfl)]
    exact congrArg z (congrArg (fun k => ix4 b (0 : Fin 1) k s) (Fin.ext (by
      show a.val = if a.val < 519 then a.val else 1036 - a.val
      rw [if_pos h])))
  · rw [concatenate_pair_apply_right (t := S16x1x526x512) (s₁ := S16x1x519x512) (s₂ := S16x1x7x512) (2 : Fin 4) _ _ _ (ix4 b (0 : Fin 1) a s) rfl rfl
      (ix4 b (0 : Fin 1) (⟨a.val - 519, by have := a.isLt; omega⟩ : Fin 7) s)
      (fun c hc => by
        match c with
        | ⟨0, _⟩ => rfl
        | ⟨1, _⟩ => rfl
        | ⟨2, _⟩ => exact absurd rfl hc
        | ⟨3, _⟩ => rfl)
      (by show a.val - 519 + 519 = a.val; omega)]
    rw [reverse_axis2_apply, slice4_axis2_eq]
    exact congrArg z (congrArg (fun k => ix4 b (0 : Fin 1) k s) (Fin.ext (by
      show 511 + (7 - (a.val - 519 + 1)) = if a.val < 519 then a.val else 1036 - a.val
      have := a.isLt
      rw [if_neg h]; omega)))

/-- Seven mirrored columns on the left. -/
theorem padLeft_apply (z : FVec Ideal S16x1x526x512 .f32) (b : Fin 16) (a : Fin 526) (c : Fin 519) :
    padLeft z (ix4 b (0 : Fin 1) a c)
      = z (ix4 b (0 : Fin 1) a ⟨if c.val < 7 then 7 - c.val else c.val - 7, by have := c.isLt; split_ifs <;> omega⟩) := by
  unfold padLeft
  by_cases h : c.val < 7
  · rw [concatenate_pair_apply_left (t := S16x1x526x519) (s₁ := S16x1x526x7) (s₂ := S16x1x526x512) (3 : Fin 4) _ _ _ (ix4 b (0 : Fin 1) a c) rfl (ix4 b (0 : Fin 1) a (⟨c.val, h⟩ : Fin 7))
      (fun d => by
        match d with
        | ⟨0, _⟩ => rfl
        | ⟨1, _⟩ => rfl
        | ⟨2, _⟩ => rfl
        | ⟨3, _⟩ => rfl)]
    rw [reverse_axis3_apply, slice4_axis3_apply 1 z _ b (0 : Fin 1) a _ ⟨1 + (7 - (c.val + 1)), by omega⟩ rfl]
    exact congrArg z (congrArg (ix4 b (0 : Fin 1) a) (Fin.ext (by
      show 1 + (7 - (c.val + 1)) = if c.val < 7 then 7 - c.val else c.val - 7
      rw [if_pos h]; omega)))
  · rw [concatenate_pair_apply_right (t := S16x1x526x519) (s₁ := S16x1x526x7) (s₂ := S16x1x526x512) (3 : Fin 4) _ _ _ (ix4 b (0 : Fin 1) a c) rfl rfl
      (ix4 b (0 : Fin 1) a (⟨c.val - 7, by have := c.isLt; omega⟩ : Fin 512))
      (fun d hd => by
        match d with
        | ⟨0, _⟩ => rfl
        | ⟨1, _⟩ => rfl
        | ⟨2, _⟩ => rfl
        | ⟨3, _⟩ => exact absurd rfl hd)
      (by show c.val - 7 + 7 = c.val; omega)]
    exact congrArg z (congrArg (ix4 b (0 : Fin 1) a) (Fin.ext (by
      show c.val - 7 = if c.val < 7 then 7 - c.val else c.val - 7
      rw [if_neg h])))

/-- Seven mirrored columns on the right. -/
theorem padRight_apply (z : FVec Ideal S16x1x526x519 .f32) (b : Fin 16) (a : Fin 526) (c : Fin 526) :
    padRight z (ix4 b (0 : Fin 1) a c)
      = z (ix4 b (0 : Fin 1) a ⟨if c.val < 519 then c.val else 1036 - c.val, by have := c.isLt; split_ifs <;> omega⟩) := by
  unfold padRight
  by_cases h : c.val < 519
  · rw [concatenate_pair_apply_left (t := S16x1x526x526) (s₁ := S16x1x526x519) (s₂ := S16x1x526x7) (3 : Fin 4) _ _ _ (ix4 b (0 : Fin 1) a c) rfl (ix4 b (0 : Fin 1) a (⟨c.val, h⟩ : Fin 519))
      (fun d => by
        match d with
        | ⟨0, _⟩ => rfl
        | ⟨1, _⟩ => rfl
        | ⟨2, _⟩ => rfl
        | ⟨3, _⟩ => rfl)]
    exact congrArg z (congrArg (ix4 b (0 : Fin 1) a) (Fin.ext (by
      show c.val = if c.val < 519 then c.val else 1036 - c.val
      rw [if_pos h])))
  · rw [concatenate_pair_apply_right (t := S16x1x526x526) (s₁ := S16x1x526x519) (s₂ := S16x1x526x7) (3 : Fin 4) _ _ _ (ix4 b (0 : Fin 1) a c) rfl rfl
      (ix4 b (0 : Fin 1) a (⟨c.val - 519, by have := c.isLt; omega⟩ : Fin 7))
      (fun d hd => by
        match d with
        | ⟨0, _⟩ => rfl
        | ⟨1, _⟩ => rfl
        | ⟨2, _⟩ => rfl
        | ⟨3, _⟩ => exact absurd rfl hd)
      (by show c.val - 519 + 519 = c.val; omega)]
    have hc := c.isLt
    rw [reverse_axis3_apply, slice4_axis3_apply 511 z _ b (0 : Fin 1) a _ ⟨511 + (7 - (c.val - 519 + 1)), by omega⟩ rfl]
    exact congrArg z (congrArg (ix4 b (0 : Fin 1) a) (Fin.ext (by
      show 511 + (7 - (c.val - 519 + 1)) = if c.val < 519 then c.val else 1036 - c.val
      rw [if_neg h]; omega)))

/-- The reflect padding at row `a` and column `c` reads the array at their mirror images. -/
theorem reflectPad_apply (z : FVec Ideal S16x1x512x512 .f32) (b : Fin 16) (a c : Fin 526) :
    reflectPad z (ix4 b (0 : Fin 1) a c) = z (ix4 b (0 : Fin 1) (mirror a) (mirror c)) := by
  unfold reflectPad
  rw [padRight_apply, padLeft_apply, padBelow_apply, padAbove_apply]
  have ha := a.isLt
  have hc := c.isLt
  refine congrArg z (congrArg₂ (fun k l => ix4 b (0 : Fin 1) k l) (Fin.ext ?_) (Fin.ext ?_))
  · show (if (if a.val < 519 then a.val else 1036 - a.val) < 7 then 7 - (if a.val < 519 then a.val else 1036 - a.val)
        else (if a.val < 519 then a.val else 1036 - a.val) - 7) = reflIdx a.val
    unfold reflIdx; split_ifs <;> omega
  · show (if (if c.val < 519 then c.val else 1036 - c.val) < 7 then 7 - (if c.val < 519 then c.val else 1036 - c.val)
        else (if c.val < 519 then c.val else 1036 - c.val) - 7) = reflIdx c.val
    unfold reflIdx; split_ifs <;> omega

/-- The window minimum at `(b, 0, p, q)`: the infimum over the fifteen rows from `p` and the fifteen columns from `q`. -/
theorem erode_apply (w : FVec Ideal S16x1x526x526 .f32) (b : Fin 16) (p q : Fin 512) :
    erode w (ix4 b (0 : Fin 1) p q) = ⨅ (i : Fin 15) (j : Fin 15), w (ix4 b (0 : Fin 1) (winAt p i) (winAt q j)) := by
  unfold erode
  rw [reduceWindow_min_eq_iInf (FloatOps.minimumf (F := Ideal) (φ := .f32)) (fun _ _ => rfl) _ _ _ _ _ _ _ _ (by
    show Ideal.ofBits .f32 0x7F800000#32 = ⊤
    exact ofBits_inf)]
  have hp := p.isLt
  have hq := q.isLt
  have hin : ∀ (i j : Fin 15) (a : Fin 4),
      (![0, 0, 0, 0] : Fin 4 → ℕ) a ≤ ((ix4 b (0 : Fin 1) p q) (a.cast rfl)).val * (![1, 1, 1, 1] : Fin 4 → ℕ) a
          + ((ix4 (0 : Fin 1) (0 : Fin 1) i j : (⟨4, ![1, 1, 15, 15]⟩ : Shape).Idx) a).val
        ∧ ((ix4 b (0 : Fin 1) p q) (a.cast rfl)).val * (![1, 1, 1, 1] : Fin 4 → ℕ) a
            + ((ix4 (0 : Fin 1) (0 : Fin 1) i j : (⟨4, ![1, 1, 15, 15]⟩ : Shape).Idx) a).val - (![0, 0, 0, 0] : Fin 4 → ℕ) a
          < S16x1x526x526.size a := by
    intro i j a
    have hi := i.isLt
    have hj := j.isLt
    have hb := b.isLt
    match a with
    | ⟨0, _⟩ => exact ⟨Nat.zero_le _, by show b.val * 1 + 0 - 0 < 16; omega⟩
    | ⟨1, _⟩ => exact ⟨Nat.zero_le _, by show 0 * 1 + 0 - 0 < 1; omega⟩
    | ⟨2, _⟩ => exact ⟨Nat.zero_le _, by show p.val * 1 + i.val - 0 < 526; omega⟩
    | ⟨3, _⟩ => exact ⟨Nat.zero_le _, by show q.val * 1 + j.val - 0 < 526; omega⟩
  apply le_antisymm
  · refine le_iInf fun i => le_iInf fun j => ?_
    refine (iInf_le _ (ix4 (0 : Fin 1) (0 : Fin 1) i j)).trans (le_of_eq ?_)
    rw [dif_pos (hin i j)]
    refine congrArg w (funext fun a => Fin.ext ?_)
    match a with
    | ⟨0, _⟩ => show b.val * 1 + 0 - 0 = b.val; omega
    | ⟨1, _⟩ => show 0 * 1 + 0 - 0 = 0; omega
    | ⟨2, _⟩ => show p.val * 1 + i.val - 0 = i.val + p.val; omega
    | ⟨3, _⟩ => show q.val * 1 + j.val - 0 = j.val + q.val; omega
  · refine le_iInf fun v => ?_
    obtain ⟨i, j, rfl⟩ : ∃ (i j : Fin 15), v = ix4 (0 : Fin 1) (0 : Fin 1) i j :=
      ⟨v 2, v 3, funext fun a => by
        match a with
        | ⟨0, _⟩ =>
          have h0 : (v (0 : Fin 4)).val < 1 := (v (0 : Fin 4)).isLt
          exact Fin.ext (by show (v (0 : Fin 4)).val = 0; omega)
        | ⟨1, _⟩ =>
          have h1 : (v (1 : Fin 4)).val < 1 := (v (1 : Fin 4)).isLt
          exact Fin.ext (by show (v (1 : Fin 4)).val = 0; omega)
        | ⟨2, _⟩ => rfl
        | ⟨3, _⟩ => rfl⟩
    rw [dif_pos (hin i j)]
    refine (iInf_le _ i).trans ((iInf_le _ j).trans (le_of_eq ?_))
    refine congrArg w (funext fun a => Fin.ext ?_)
    match a with
    | ⟨0, _⟩ => show b.val = b.val * 1 + 0 - 0; omega
    | ⟨1, _⟩ => show 0 = 0 * 1 + 0 - 0; omega
    | ⟨2, _⟩ => show i.val + p.val = p.val * 1 + i.val - 0; omega
    | ⟨3, _⟩ => show j.val + q.val = q.val * 1 + j.val - 0; omega

/-- The reference's dark channel at `(b, 0, p, q)` is the specification's, of image `b`. -/
theorem darkChannel_apply (x : FVec Ideal S16x3x512x512 .f32) (b : Fin 16) (p q : Fin 512) :
    darkChannel x (ix4 b (0 : Fin 1) p q) = DarkSpec.dark (imageOfBatch x b) p q := by
  unfold darkChannel clamp DarkSpec.dark eroded padded chanMin imageOfBatch
  rw [minimumf_apply, maximumf_apply, erode_apply]
  simp only [reflectPad_apply, channelMin_apply, unitRange_apply]
  rfl

/-- The host's quotient at an index. -/
theorem hostDivf_apply {s : Shape} {φ : FTy} (x y : FVec Ideal s φ) (i : s.Idx) :
    Host.divf x y i = Ideal.div (x i) (y i) := rfl

/-- The reference's result: the initial 0 plus the sum over batch, rows and columns of the squared differences,
    divided by the pixel count. -/
theorem refLoss_apply (a b : FVec Ideal S16x3x512x512 .f32) :
    refLoss a b ix0
      = Ideal.div (Ideal.ofBits .f32 0x00000000#32
          + ∑ n : Fin 16, ∑ p : Fin 512, ∑ q : Fin 512, sqDiff (imageOfBatch a n) (imageOfBatch b n) p q)
        (Ideal.ofBits .f32 0x4A800000#32) := by
  unfold refLoss
  rw [hostDivf_apply, hostReduceAdd_apply, Ideal.hostReduceAdd_total _ (fun k => k.elim0), sum_idx4]
  simp only [constant_apply]
  refine congrArg (fun t => Ideal.div (Ideal.ofBits .f32 0x00000000#32 + t) (Ideal.ofBits .f32 0x4A800000#32)) ?_
  refine Finset.sum_congr rfl fun n _ => ?_
  rw [sum_fin_one]
  refine Finset.sum_congr rfl fun p _ => Finset.sum_congr rfl fun q _ => ?_
  unfold sqDiff
  rw [mulf_apply, subf_apply, darkChannel_apply, darkChannel_apply]

end Cert.ReferenceIdeal.RefValue

end
-- ==== Proof.Bridge.lean ====
/-
  The two programs' results are one function of the two argument batches.

  The kernel's array of partial results holds, at batch entry n, the body's stored value of images n of the two
  batches, which is the sum over the pixels of the squared difference of their dark channels; the host sums the
  sixteen entries from zero and divides by the pixel count. The reference sums the same squared differences over
  batch, rows and columns at once, from zero, and divides by the same count. Sums in the extended reals regroup
  freely (addition is commutative and associative there), so the two results are equal at every input: no
  finiteness is used.
-/
import proofs.«124275_j16363825398434_2_alg».proof.Proof.KernelRun
import proofs.«124275_j16363825398434_2_alg».proof.Proof.KernelRead
import proofs.«124275_j16363825398434_2_alg».proof.Proof.RefRead
import Idealize.ShloMosaic.Lib.IdealHost

set_option maxRecDepth 16384

noncomputable section

namespace Cert.Bridge

open Idealize.ShloMosaic Idealize.ShloMosaic.ValueIdx Cert.DarkSpec Cert.LibWindowMin

/-- The host's quotient at an index. -/
theorem hostDivf_apply {s : Shape} {φ : FTy} (x y : FVec Ideal s φ) (i : s.Idx) :
    Host.divf x y i = Ideal.div (x i) (y i) := rfl

section Kernel
open Cert.KernelIdeal Cert.KernelIdeal.KValue Cert.KernelIdeal.KBody
variable [Cert.KernelIdeal.Facts]
open Cert.KernelIdeal.Facts₀ Cert.KernelIdeal.Facts

theorem zero3 : (![0, 0, 0] : Fin 3 → ℕ) = fun _ => 0 := funext fun a => by fin_cases a <;> rfl
theorem zero4 : (![0, 0, 0, 0] : Fin 4 → ℕ) = fun _ => 0 := funext fun a => by fin_cases a <;> rfl

/-- The output block after the body: the one store through the whole block leaves its payload, and the two loads
    through the whole blocks read the blocks. -/
theorem out0_2_eq (x0 x1 : Vec Ideal S1x3x512x512 .f32) : Gen.out0_2 x0 x1 = partialSum x0 x1 := by
  unfold Gen.out0_2
  rw [View.canon_unit_zero zero3]
  simp only [View.ld_unit_zero (S := S1x3x512x512) zero4]
  exact payload_eq x0 x1

/-- The kernel's result: the initial 0 plus the sum over the sixteen images of the pixel sums, divided by the count. -/
theorem tail_partials_apply (A0 A1 : Vec Ideal S16x3x512x512 .f32) :
    KValue.tail (KValue.partials A0 A1) ix0
      = Ideal.div (Ideal.ofBits .f32 0x00000000#32
          + ∑ n : Fin 16, ∑ p : Fin 512, ∑ q : Fin 512,
              sqDiff (imageOfBlock (imageOf A0 n)) (imageOfBlock (imageOf A1 n)) p q)
        (Ideal.ofBits .f32 0x4A800000#32) := by
  unfold KValue.tail
  rw [hostDivf_apply, hostReduceAdd_apply, Ideal.hostReduceAdd_total _ (fun k => k.elim0), sum_idx3]
  simp only [constant_apply]
  refine congrArg (fun t => Ideal.div (Ideal.ofBits .f32 0x00000000#32 + t) (Ideal.ofBits .f32 0x4A800000#32)) ?_
  refine Finset.sum_congr rfl fun n _ => ?_
  rw [sum_fin_one, sum_fin_one]
  show Gen.out0_2 (imageOf A0 n) (imageOf A1 n) theIdx = _
  rw [out0_2_eq]
  exact partialSum_apply _ _

end Kernel

variable [Cert.KernelIdeal.Facts] [Cert.ReferenceIdeal.Facts]

/-- The kernel's result term and the reference's are equal, whatever the two batches hold. -/
theorem result_eq (A0 A1 : FVec Ideal (⟨4, ![16, 3, 512, 512]⟩ : Shape) .f32) :
    (Cert.KernelIdeal.KValue.tail (F := Ideal) (Cert.KernelIdeal.KValue.partials (F := Ideal) A0 A1)
        : FVec Ideal (⟨0, ![]⟩ : Shape) .f32)
      = Cert.ReferenceIdeal.RefValue.refLoss A0 A1 := by
  funext i
  rw [eq_ix0 i, tail_partials_apply, Cert.ReferenceIdeal.RefValue.refLoss_apply]
  rfl

end Cert.Bridge

end
-- ==== Proof.lean ====
/-
  The certificate of the dark-channel loss kernel against its reference.

  Both programs compute, for two batches of sixteen three-channel 512 x 512 images, the mean over batch and pixels
  of the squared difference of the images' dark channels, where the dark channel of an image is, pixel by pixel,
  the least value of (x + 1) / 2 over the three channels and over the 15 x 15 window around the pixel of the image
  extended by reflection, clamped into [0, 0.1].

  The kernel takes one image pair per grid point: it multiplies by ½ where the reference divides by 2, takes the
  channel minimum as two binary minima where the reference folds a minimum from +inf, builds the reflection out of
  fifteen pieces per axis (seven single columns, the array, seven single columns) where the reference reverses and
  concatenates bands of seven, takes the window minimum separably (fifteen column bands, then fifteen row bands)
  where the reference folds one 15 x 15 window from +inf, and sums the squares lane by lane, then row by row, the
  host adding the sixteen partial sums, where the reference sums everything at once. Over the extended reals all
  of these are equalities at every input: x / 2 = x · ½ everywhere, minima regroup in a complete linear order, and
  sums regroup in a commutative monoid. So the precondition (finite inputs) is never opened.

  The three frames: the two kernels' are the generated frame runs; the reference has no kernel, and its frame is its
  run with the result dropped. The idealization rewrote nothing, so `preserves` is `True`.
-/
import proofs.«124275_j16363825398434_2_alg».proof.Defs
import proofs.«124275_j16363825398434_2_alg».proof.Proof.Gen.Kernel
import proofs.«124275_j16363825398434_2_alg».proof.Proof.Gen.Kernel.Skeleton
import proofs.«124275_j16363825398434_2_alg».proof.Proof.Gen.Kernel.Launch
import proofs.«124275_j16363825398434_2_alg».proof.Proof.Gen.Kernel.Points
import proofs.«124275_j16363825398434_2_alg».proof.Proof.Gen.Kernel.Frame
import proofs.«124275_j16363825398434_2_alg».proof.Proof.Gen.KernelIdeal
import proofs.«124275_j16363825398434_2_alg».proof.Proof.Gen.KernelIdeal.Skeleton
import proofs.«124275_j16363825398434_2_alg».proof.Proof.Gen.KernelIdeal.Launch
import proofs.«124275_j16363825398434_2_alg».proof.Proof.Gen.KernelIdeal.Points
import proofs.«124275_j16363825398434_2_alg».proof.Proof.Gen.KernelIdeal.Frame
import proofs.«124275_j16363825398434_2_alg».proof.Proof.Gen.ReferenceIdeal
import proofs.«124275_j16363825398434_2_alg».proof.Proof.Gen.Pre_finite_inputs
import proofs.«124275_j16363825398434_2_alg».proof.Proof.KernelRun
import proofs.«124275_j16363825398434_2_alg».proof.Proof.RefRun
import proofs.«124275_j16363825398434_2_alg».proof.Proof.Bridge
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.RefValue.run (F := Ideal) m ρ)

/-- From memories that agree on the two batches both programs end with the same mean squared difference. -/
theorem algebraic : Cert.algebraic_KernelIdeal_ReferenceIdeal := by
  intro m ρ m' ρ' _ hagree
  refine ⟨_, Cert.KernelIdeal.KValue.run (F := Ideal) m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2]
  exact (Cert.Bridge.result_eq _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
